-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S512x128 : Shape := ⟨2, ![512, 128]⟩
abbrev S128 : Shape := ⟨1, ![128]⟩
abbrev S256x3 : Shape := ⟨2, ![256, 3]⟩
abbrev S3 : Shape := ⟨1, ![3]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S256x3 .f32) (main_arg8 : FVec F S3 .f32) (main_v33 : IVec S_ 1) : IVec S_ 1 :=
  let main_v34 : FVec F S256x3 .f32 := Host.absf main_arg7
  let main_cst_12 : FVec F S_ .f32 := constant S_ .f32 0x7F800000#32
  let main_v35 : FVec F S256x3 .f32 := broadcastInDim S256x3 ![] bcast_S_S256x3 main_cst_12
  let main_v36 : IVec S256x3 1 := cmpf .olt main_v34 main_v35
  let main_c_13 : IVec S_ 1 := constantI S_ 1 1#1
  let main_v37 : IVec S_ 1 := (fun x v => Host.reduce IntOp.andi x v reducesTo_S256x3_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg4 : FVec F S128 .f32) (main_arg5 : FVec F S512x128 .f32) (main_arg6 : FVec F S128 .f32) (main_arg7 : FVec F S256x3 .f32) (main_arg8 : FVec F S3 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S100000x256 .f32) (main_arg1 : FVec F S100000x256 .f32) (main_arg2 : FVec F S100000x256 .f32) (main_arg3 : FVec F S512x128 .f32) (main_arg4 : FVec F S128 .f32) (main_arg5 : FVec F S512x128 .f32) (main_arg6 : FVec F S128 .f32) (main_arg7 : FVec F S256x3 .f32) (main_arg8 : FVec F S3 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S100000x256 .f32 := Host.absf main_arg2
  let main_cst_2 : FVec F S_ .f32 := constant S_ .f32 0x7F800000#32
  let main_v10 : FVec F S100000x256 .f32 := broadcastInDim S100000x256 ![] bcast_S_S100000x256 main_cst_2
  let main_v11 : IVec S100000x256 1 := cmpf .olt main_v9 main_v10
  let main_c_3 : IVec S_ 1 := constantI S_ 1 1#1
  let main_v12 : IVec S_ 1 := (fun x v => Host.reduce IntOp.andi x v reducesTo_S100000x256_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_v13 main_v16
-- ==== Kernel.lean ====
abbrev S100000x256 : Shape := ⟨2, ![100000, 256]⟩
abbrev S512x128 : Shape := ⟨2, ![512, 128]⟩
abbrev S128 : Shape := ⟨1, ![128]⟩
abbrev S256x3 : Shape := ⟨2, ![256, 3]⟩
abbrev S3 : Shape := ⟨1, ![3]⟩
abbrev S256x128 : Shape := ⟨2, ![256, 128]⟩
abbrev S256x512 : Shape := ⟨2, ![256, 512]⟩
abbrev S256 : Shape := ⟨1, ![256]⟩
abbrev S1x256 : Shape := ⟨2, ![1, 256]⟩
abbrev S1x3 : Shape := ⟨2, ![1, 3]⟩
abbrev S100000x3 : Shape := ⟨2, ![100000, 3]⟩
abbrev S7168x256 : Shape := ⟨2, ![7168, 256]⟩
abbrev S7168x3 : Shape := ⟨2, ![7168, 3]⟩
abbrev S256x256 : Shape := ⟨2, ![256, 256]⟩
abbrev S7168x128 : Shape := ⟨2, ![7168, 128]⟩
abbrev S1x128 : Shape := ⟨2, ![1, 128]⟩
abbrev S128x3 : Shape := ⟨2, ![128, 3]⟩

abbrev nBuf : Space → Nat
  | .hbm => 20
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S100000x256, .f32⟩
  | .hbm, ⟨3, _⟩ => ⟨S512x128, .f32⟩
  | .hbm, ⟨4, _⟩ => ⟨S128, .f32⟩
  | .hbm, ⟨5, _⟩ => ⟨S512x128, .f32⟩
  | .hbm, ⟨6, _⟩ => ⟨S128, .f32⟩
  | .hbm, ⟨7, _⟩ => ⟨S256x3, .f32⟩
  | .hbm, ⟨8, _⟩ => ⟨S3, .f32⟩
  | .hbm, ⟨9, _⟩ => ⟨S256x128, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S256x512, .f32⟩
  | .hbm, ⟨14, _⟩ => ⟨S256x512, .bf16⟩
  | .hbm, ⟨15, _⟩ => ⟨S256, .f32⟩
  | .hbm, ⟨16, _⟩ => ⟨S1x256, .f32⟩
  | .hbm, ⟨17, _⟩ => ⟨S256x3, .bf16⟩
  | .hbm, ⟨18, _⟩ => ⟨S1x3, .f32⟩
  | .hbm, ⟨19, _⟩ => ⟨S100000x3, .f32⟩
  | .local _ .vmem, ⟨0, _⟩ => ⟨S7168x256, .f32⟩
  | .local _ .vmem, ⟨1, _⟩ => ⟨S7168x256, .f32⟩
  | .local _ .vmem, ⟨2, _⟩ => ⟨S7168x256, .f32⟩
  | .local _ .vmem, ⟨3, _⟩ => ⟨S7168x256, .f32⟩
  | .local _ .vmem, ⟨4, _⟩ => ⟨S7168x256, .f32⟩
  | .local _ .vmem, ⟨5, _⟩ => ⟨S7168x256, .f32⟩
  | .local _ .vmem, ⟨6, _⟩ => ⟨S256x512, .bf16⟩
  | .local _ .vmem, ⟨7, _⟩ => ⟨S1x256, .f32⟩
  | .local _ .vmem, ⟨8, _⟩ => ⟨S256x3, .bf16⟩
  | .local _ .vmem, ⟨9, _⟩ => ⟨S1x3, .f32⟩
  | .local _ .vmem, ⟨10, _⟩ => ⟨S7168x3, .f32⟩
  | .local _ .vmem, ⟨11, _⟩ => ⟨S7168x3, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7168x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7168x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7168x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x3 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S7168x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S512x128_S256x128_0_0 : S512x128.Slices ![0, 0] S256x128
  slices_S512x128_S256x128_256_0 : S512x128.Slices ![256, 0] S256x128
  concatenates_S256x128_S256x128_S256x128_S256x128_S256x512_d1 : Shape.Concatenates [S256x128, S256x128, S256x128, S256x128] S256x512 1
  bitsLt_bf16_f32 : FTy.bits .bf16 < FTy.bits .f32
  concatenates_S128_S128_S256_d0 : Shape.Concatenates [S128, S128] S256 0
  shapeCasts_S256_S1x256 : S256.ShapeCasts S1x256
  shapeCasts_S3_S1x3 : S3.ShapeCasts S1x3
  inb_S7168x256_S7168x256_0_0 : ∀ a, (![0, 0] : Fin 2 → Nat) a + S7168x256.size a ≤ S7168x256.size a
  h_S7168x256 : 0 < S7168x256.numel
  inb_S256x512_S256x256_0_256 : ∀ a, (![0, 256] : Fin 2 → Nat) a + S256x256.size a ≤ S256x512.size a
  h_S256x256 : 0 < S256x256.numel
  shapeCasts_S256x256_S256x256 : S256x256.ShapeCasts S256x256
  inb_S256x512_S256x128_0_0 : ∀ a, (![0, 0] : Fin 2 → Nat) a + S256x128.size a ≤ S256x512.size a
  h_S256x128 : 0 < S256x128.numel
  shapeCasts_S256x128_S256x128 : S256x128.ShapeCasts S256x128
  slices_S7168x256_o0_0_S7168x128 : S7168x256.Slices ![0, 0] S7168x128
  inb_S1x256_S1x128_0_0 : ∀ a, (![0, 0] : Fin 2 → Nat) a + S1x128.size a ≤ S1x256.size a
  h_S1x128 : 0 < S1x128.numel
  shapeCasts_S1x128_S1x128 : S1x128.ShapeCasts S1x128
  broadcasts_S1x128_S7168x128 : S1x128.Broadcasts S7168x128
  inb_S256x512_S256x128_0_128 : ∀ a, (![0, 128] : Fin 2 → Nat) a + S256x128.size a ≤ S256x512.size a
  slices_S7168x256_o0_128_S7168x128 : S7168x256.Slices ![0, 128] S7168x128
  inb_S1x256_S1x128_0_128 : ∀ a, (![0, 128] : Fin 2 → Nat) a + S1x128.size a ≤ S1x256.size a
  inb_S256x3_S128x3_0_0 : ∀ a, (![0, 0] : Fin 2 → Nat) a + S128x3.size a ≤ S256x3.size a
  h_S128x3 : 0 < S128x3.numel
  shapeCasts_S128x3_S128x3 : S128x3.ShapeCasts S128x3
  inb_S256x3_S128x3_128_0 : ∀ a, (![128, 0] : Fin 2 → Nat) a + S128x3.size a ≤ S256x3.size a
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S7168x3 : S1x3.Broadcasts S7168x3
  inb_S7168x3_S7168x3_0_0 : ∀ a, (![0, 0] : Fin 2 → Nat) a + S7168x3.size a ≤ S7168x3.size a
  h_S7168x3 : 0 < S7168x3.numel
  dot_S7168x256_S256x256_S7168x256_1_0_0_1_n_n_wf : DotDims.WF S7168x256 S256x256 S7168x256 [1] [0] [0] [1] [] []
  dot_S7168x256_S256x128_S7168x128_1_0_0_1_n_n_wf : DotDims.WF S7168x256 S256x128 S7168x128 [1] [0] [0] [1] [] []
  dot_S7168x128_S128x3_S7168x3_1_0_0_1_n_n_wf : DotDims.WF S7168x128 S128x3 S7168x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S7168x256.size a < S100000x256.size a
  hwx0_0 : ∀ i : grid0.Coords, EltTy.bits .f32 = 32 ∨ (Rect.unit (s := S100000x256) (fun a => cc0_transform_0 i a * S7168x256.size a) (fun a => (Pipeline.Clip.of (cc0_transform_0 i a) (S7168x256.size a) (S100000x256.size a)).extent (S7168x256.size a)) fun a => Pipeline.Clip.inb (Pipeline.Clip.ok_of (hstart0_0 i a))).WholeWords (EltTy.packing .f32)
  hwxs0_0 : ∀ i : grid0.Coords, EltTy.bits .f32 = 32 ∨ (Rect.unit (s := S7168x256) (fun _ => 0) (fun a => (Pipeline.Clip.of (cc0_transform_0 i a) (S7168x256.size a) (S100000x256.size a)).extent (S7168x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S7168x256.size a < S100000x256.size a
  hwx0_1 : ∀ i : grid0.Coords, EltTy.bits .f32 = 32 ∨ (Rect.unit (s := S100000x256) (fun a => cc0_transform_1 i a * S7168x256.size a) (fun a => (Pipeline.Clip.of (cc0_transform_1 i a) (S7168x256.size a) (S100000x256.size a)).extent (S7168x256.size a)) fun a => Pipeline.Clip.inb (Pipeline.Clip.ok_of (hstart0_1 i a))).WholeWords (EltTy.packing .f32)
  hwxs0_1 : ∀ i : grid0.Coords, EltTy.bits .f32 = 32 ∨ (Rect.unit (s := S7168x256) (fun _ => 0) (fun a => (Pipeline.Clip.of (cc0_transform_1 i a) (S7168x256.size a) (S100000x256.size a)).extent (S7168x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S7168x256.size a < S100000x256.size a
  hwx0_2 : ∀ i : grid0.Coords, EltTy.bits .f32 = 32 ∨ (Rect.unit (s := S100000x256) (fun a => cc0_transform_2 i a * S7168x256.size a) (fun a => (Pipeline.Clip.of (cc0_transform_2 i a) (S7168x256.size a) (S100000x256.size a)).extent (S7168x256.size a)) fun a => Pipeline.Clip.inb (Pipeline.Clip.ok_of (hstart0_2 i a))).WholeWords (EltTy.packing .f32)
  hwxs0_2 : ∀ i : grid0.Coords, EltTy.bits .f32 = 32 ∨ (Rect.unit (s := S7168x256) (fun _ => 0) (fun a => (Pipeline.Clip.of (cc0_transform_2 i a) (S7168x256.size a) (S100000x256.size a)).extent (S7168x256.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x3.size a ≤ S256x3.size a
  hwx0_5 : ∀ i : grid0.Coords, EltTy.bits .bf16 = 32 ∨ (Rect.block (s := S256x3) S256x3.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S7168x3.size a < S100000x3.size a
  hwx0_7 : ∀ i : grid0.Coords, EltTy.bits .f32 = 32 ∨ (Rect.unit (s := S100000x3) (fun a => cc0_transform_7 i a * S7168x3.size a) (fun a => (Pipeline.Clip.of (cc0_transform_7 i a) (S7168x3.size a) (S100000x3.size a)).extent (S7168x3.size a)) fun a => Pipeline.Clip.inb (Pipeline.Clip.ok_of (hstart0_7 i a))).WholeWords (EltTy.packing .f32)
  hwxs0_7 : ∀ i : grid0.Coords, EltTy.bits .f32 = 32 ∨ (Rect.unit (s := S7168x3) (fun _ => 0) (fun a => (Pipeline.Clip.of (cc0_transform_7 i a) (S7168x3.size a) (S100000x3.size a)).extent (S7168x3.size a)) fun a => (Nat.zero_add _).trans_le (Pipeline.Clip.extent_le (Pipeline.Clip.ok_of (hstart0_7 i a)))).WholeWords (EltTy.packing .f32)

variable [Facts₀]

def dot_S7168x256_S256x256_S7168x256_1_0_0_1_n_n : DotDims S7168x256 S256x256 S7168x256 where
  lhsContracting := [1]
  rhsContracting := [0]
  lhsNonContracting := [0]
  rhsNonContracting := [1]
  lhsBatch := []
  rhsBatch := []
  wf := dot_S7168x256_S256x256_S7168x256_1_0_0_1_n_n_wf
def dot_S7168x256_S256x128_S7168x128_1_0_0_1_n_n : DotDims S7168x256 S256x128 S7168x128 where
  lhsContracting := [1]
  rhsContracting := [0]
  lhsNonContracting := [0]
  rhsNonContracting := [1]
  lhsBatch := []
  rhsBatch := []
  wf := dot_S7168x256_S256x128_S7168x128_1_0_0_1_n_n_wf
def dot_S7168x128_S128x3_S7168x3_1_0_0_1_n_n : DotDims S7168x128 S128x3 S7168x3 where
  lhsContracting := [1]
  rhsContracting := [0]
  lhsNonContracting := [0]
  rhsNonContracting := [1]
  lhsBatch := []
  rhsBatch := []
  wf := dot_S7168x128_S128x3_S7168x3_1_0_0_1_n_n_wf

abbrev win0_0 : Pipeline.Window sig grid0 :=
  Pipeline.Window.ofSpecClip (Memref.whole main_arg0) S7168x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S7168x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S7168x256.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v5) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S256x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v10) S7168x3.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x256 : Shape := ⟨2, ![100000, 256]⟩
abbrev S512x128 : Shape := ⟨2, ![512, 128]⟩
abbrev S128 : Shape := ⟨1, ![128]⟩
abbrev S256x3 : Shape := ⟨2, ![256, 3]⟩
abbrev S3 : Shape := ⟨1, ![3]⟩
abbrev S100000x512 : Shape := ⟨2, ![100000, 512]⟩
abbrev S100000x128 : Shape := ⟨2, ![100000, 128]⟩
abbrev S1x128 : Shape := ⟨2, ![1, 128]⟩
abbrev S_ : Shape := ⟨0, ![]⟩
abbrev S100000x3 : Shape := ⟨2, ![100000, 3]⟩
abbrev S1x3 : Shape := ⟨2, ![1, 3]⟩

abbrev nBuf : Space → Nat
  | .hbm => 30
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S100000x256, .f32⟩
  | .hbm, ⟨3, _⟩ => ⟨S512x128, .f32⟩
  | .hbm, ⟨4, _⟩ => ⟨S128, .f32⟩
  | .hbm, ⟨5, _⟩ => ⟨S512x128, .f32⟩
  | .hbm, ⟨6, _⟩ => ⟨S128, .f32⟩
  | .hbm, ⟨7, _⟩ => ⟨S256x3, .f32⟩
  | .hbm, ⟨8, _⟩ => ⟨S3, .f32⟩
  | .hbm, ⟨9, _⟩ => ⟨S100000x512, .f32⟩
  | .hbm, ⟨10, _⟩ => ⟨S100000x512, .f32⟩
  | .hbm, ⟨11, _⟩ => ⟨S100000x128, .f32⟩
  | .hbm, ⟨12, _⟩ => ⟨S1x128, .f32⟩
  | .hbm, ⟨13, _⟩ => ⟨S100000x128, .f32⟩
  | .hbm, ⟨14, _⟩ => ⟨S100000x128, .f32⟩
  | .hbm, ⟨15, _⟩ => ⟨S_, .f32⟩
  | .hbm, ⟨16, _⟩ => ⟨S100000x128, .f32⟩
  | .hbm, ⟨17, _⟩ => ⟨S100000x128, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S100000x256, .f32⟩
  | .hbm, ⟨26, _⟩ => ⟨S100000x3, .f32⟩
  | .hbm, ⟨27, _⟩ => ⟨S1x3, .f32⟩
  | .hbm, ⟨28, _⟩ => ⟨S100000x3, .f32⟩
  | .hbm, ⟨29, _⟩ => ⟨S100000x3, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]

class Facts₀ : Prop where
  concatenates_S100000x256_S100000x256_S100000x512_d1 : Shape.Concatenates [S100000x256, S100000x256] S100000x512 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  dot_S100000x512_S512x128_S100000x128_1_0_0_1_n_n_wf : DotDims.WF S100000x512 S512x128 S100000x128 [1] [0] [0] [1] [] []
  dot_S100000x256_S256x3_S100000x3_1_0_0_1_n_n_wf : DotDims.WF S100000x256 S256x3 S100000x3 [1] [0] [0] [1] [] []

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x256_S256x3_S100000x3_1_0_0_1_n_n : DotDims S100000x256 S256x3 S100000x3 where
  lhsContracting := [1]
  rhsContracting := [0]
  lhsNonContracting := [0]
  rhsNonContracting := [1]
  lhsBatch := []
  rhsBatch := []
  wf := dot_S100000x256_S256x3_S100000x3_1_0_0_1_n_n_wf

class Facts : Prop extends Facts₀ where

variable [Facts]
-- ==== Proof.EntryBits.lean ====
/-
  The state in which the one pipelined region is entered, and the frame read off a run of it.

  Before the region the program slices the two first-layer weight matrices into their upper and lower halves, lays the
  four halves side by side into one 256 x 512 matrix, joins the two first-layer bias vectors into one row of 256, and
  reshapes the second-layer bias into a row of 3; the two weight operands change float format (the identity on values
  at the exact reading). None of these ten operations writes an argument array, so the region finds the nine arguments
  as launched. Windows 0, 1, 2 stage the three row-aligned inputs in blocks of 7168 rows, fourteen blocks for 100000
  rows, the last one reaching 352 rows past the end; windows 3 to 6 stage the four small operands whole; window 7 is
  the result, in blocks of 7168 rows of 3.

  From a run of the region to the library's post (each windowed array at what the proof data computes, each other
  buffer as at entry), the argument arrays end as launched: an input window's array is never written, and the six
  remaining arguments are no window's array.
-/
import proofs.«148667_g32006096290012_cont_8to1_b_1154_28_alg».proof.Proof.Gen.Kernel.Launch
import proofs.«148667_g32006096290012_cont_8to1_b_1154_28_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

variable (m : (ℓ : Loc nD τ sig) → Buf (Elt F) ℓ) (ρ : Dev nD → PrngReg)

/-! ## The program up to the region -/

/-- Core c's buffers when the region is entered: the launch contents after the ten host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is the ten host operations and then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))

/-! ## The windows' blocks -/

/-- Window w's block at point t: the part of the block inside the array, read off the array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The frame from a run -/

/-- The argument arrays are as launched in any state satisfying the post of exact proof data. -/
theorem args_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩

/-- The argument arrays end as launched, from a run to the post of exact proof data. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-- The same from a run to the relational post of proof data read with some windows forgotten, none of them an
    input window: an input window's array may only hold what the exact data says, its entry contents. -/
theorem frame_of_forgetting (dats : (p : Fin 1) → (c : Dev nD) → Dat τ (Elt F) Unit ℕ (UR sig nD τ) ℕ (cfgs p) c)
    (fgt : Fin cfg0.W → Bool) (h0 : fgt 0 = false) (h1 : fgt 1 = false) (h2 : fgt 2 = false)
    (hA : ∀ c w, (dats 0 c).A w = V m c (Pipeline.arrRef spec0 w))
    (h : θ_run defs (onTc (τ := τ) (main (F := F))) (s₀ m ρ)
      (RDat.FramePost cfg0 (fun c => (dats 0 c).toRForget fgt) (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      (((dats 0 c).toRForget_arrAt_iff h0 _ _).mp ((h c).1 0)).trans (((dats 0 c).arrAt_in 0 rfl _).trans ((hA c 0).trans (V_main_arg0 m c))),
      (((dats 0 c).toRForget_arrAt_iff h1 _ _).mp ((h c).1 1)).trans (((dats 0 c).arrAt_in 1 rfl _).trans ((hA c 1).trans (V_main_arg1 m c))),
      (((dats 0 c).toRForget_arrAt_iff h2 _ _).mp ((h c).1 2)).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

end Cert.Kernel.Entry

end
-- ==== Proof.BodyBits.lean ====
/-
  The body of the fused kernel at one grid point, as a triple over its eight staging buffers.

  The body reads the three input slabs (7168 rows of 256), three column ranges of the packed first-layer weights
  (columns 0..127 for the first branch, 128..255 for the second, 256..511 for the shared input), the two halves of the
  packed bias row, the two row ranges of the second-layer weights and the second-layer bias row; it computes the two
  rectified hidden slabs and their second-layer products, and stores the 7168 x 3 result into the output buffer whole.
  It changes none of the seven input buffers. What it leaves in the output buffer is one pure function of the contents
  of the seven input buffers ('outBuf'), whatever the output buffer held.
-/
import proofs.«148667_g32006096290012_cont_8to1_b_1154_28_alg».proof.Proof.EntryBits
import proofs.«148667_g32006096290012_cont_8to1_b_1154_28_alg».proof.Proof.Gen.Kernel.Skeleton
import Idealize.ShloMosaic.Lib.Pipeline.Value

set_option maxRecDepth 16384

noncomputable section

namespace Cert.Kernel.Body

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ## The rectangles the body reads and writes through -/

/-- A whole input slab. -/
abbrev rIn : Rect S7168x256 := Rect.unit (s := S7168x256) ![0, 0] S7168x256.size inb_S7168x256_S7168x256_0_0
/-- Columns 256..511 of the packed weights: the shared input's part of both branches. -/
abbrev rWc : Rect S256x512 := Rect.unit (s := S256x512) ![0, 256] S256x256.size inb_S256x512_S256x256_0_256
/-- Columns 0..127: the first branch's own part. -/
abbrev rWn : Rect S256x512 := Rect.unit (s := S256x512) ![0, 0] S256x128.size inb_S256x512_S256x128_0_0
/-- Columns 128..255: the second branch's own part. -/
abbrev rWr : Rect S256x512 := Rect.unit (s := S256x512) ![0, 128] S256x128.size inb_S256x512_S256x128_0_128
/-- The two halves of the packed bias row. -/
abbrev rBn : Rect S1x256 := Rect.unit (s := S1x256) ![0, 0] S1x128.size inb_S1x256_S1x128_0_0
abbrev rBr : Rect S1x256 := Rect.unit (s := S1x256) ![0, 128] S1x128.size inb_S1x256_S1x128_0_128
/-- Rows 0..127 and 128..255 of the second-layer weights. -/
abbrev rDn : Rect S256x3 := Rect.unit (s := S256x3) ![0, 0] S128x3.size inb_S256x3_S128x3_0_0
abbrev rDr : Rect S256x3 := Rect.unit (s := S256x3) ![128, 0] S128x3.size inb_S256x3_S128x3_128_0
/-- The second-layer bias row, and the whole output block. -/
abbrev rBd : Rect S1x3 := Rect.unit (s := S1x3) ![0, 0] S1x3.size inb_S1x3_S1x3_0_0
abbrev rOut : Rect S7168x3 := Rect.unit (s := S7168x3) ![0, 0] S7168x3.size inb_S7168x3_S7168x3_0_0

/-! ## What the body leaves in the output buffer -/

/-- The stored value, from the contents of the seven input buffers: x0, x1, x2 the first-branch, shared and
    second-branch input slabs, x3 the packed weights, x4 the packed bias row, x5 the second-layer weights, x6 the
    second-layer bias row. -/
def stored (x0 x1 x2 : Vec F S7168x256 .f32) (x3 : Vec F S256x512 .bf16) (x4 : Vec F S1x256 .f32)
    (x5 : Vec F S256x3 .bf16) (x6 : Vec F S1x3 .f32) : FVec F S7168x3 .f32 :=
  k0_pay1
    (k0_pay3 (View.ld x1 rIn) (View.ld x3 rWc) (View.ld x0 rIn) (View.ld x3 rWn) (View.ld x4 rBn) (View.ld x5 rDn))
    (k0_pay4 (View.ld x1 rIn) (View.ld x3 rWc) (View.ld x2 rIn) (View.ld x3 rWr) (View.ld x4 rBr))
    (View.ld x5 rDr) (View.ld x6 rBd)

/-- The output buffer after the body: its one store, through the whole block. -/
def outBuf (x0 x1 x2 : Vec F S7168x256 .f32) (x3 : Vec F S256x512 .bf16) (x4 : Vec F S1x256 .f32)
    (x5 : Vec F S256x3 .bf16) (x6 : Vec F S1x3 .f32) : Vec F S7168x3 .f32 :=
  View.canon [⟨rOut, stored x0 x1 x2 x3 x4 x5 x6⟩]

/-- The one store covers the output buffer. -/
theorem cover_out (p0 : Vec F S7168x3 .f32) (y : S7168x3.Idx) :
    ∃ pc ∈ ([⟨rOut, p0⟩] : List (View.Piece (Elt F) S7168x3 .f32)), y ∈ pc.1.set :=
  View.cover_of_tiled [⟨rOut, p0⟩] S7168x3.size (by rfl) y

/-- The store is through the whole block at offset zero, so the buffer ends at the stored value itself. -/
theorem outBuf_eq (x0 x1 x2 : Vec F S7168x256 .f32) (x3 : Vec F S256x512 .bf16) (x4 : Vec F S1x256 .f32)
    (x5 : Vec F S256x3 .bf16) (x6 : Vec F S1x3 .f32) :
    outBuf x0 x1 x2 x3 x4 x5 x6 = stored x0 x1 x2 x3 x4 x5 x6 := by
  have hz : (![0, 0] : Fin 2 → Nat) = fun _ => 0 := funext fun a => by fin_cases a <;> rfl
  unfold outBuf
  exact View.canon_unit_zero hz _ _

/-! ## The body's triple -/

set_option maxHeartbeats 4000000 in
/-- On whole staging memrefs, the seven inputs' at any contents and the output's at anything, the body runs to the
    continuation holding the inputs' as they were and the output's at 'outBuf' of them. -/
theorem sound_kernel (c : Dev nD) (E : Set ℕ) (i : grid0.Coords)
    (arg1 : Memref sig .tc .vmem S7168x256 .f32) (harg1 : arg1.IsWhole)
    (arg2 : Memref sig .tc .vmem S7168x256 .f32) (harg2 : arg2.IsWhole)
    (arg3 : Memref sig .tc .vmem S7168x256 .f32) (harg3 : arg3.IsWhole)
    (arg4 : Memref sig .tc .vmem S256x512 .bf16) (harg4 : arg4.IsWhole)
    (arg5 : Memref sig .tc .vmem S1x256 .f32) (harg5 : arg5.IsWhole)
    (arg6 : Memref sig .tc .vmem S256x3 .bf16) (harg6 : arg6.IsWhole)
    (arg7 : Memref sig .tc .vmem S1x3 .f32) (harg7 : arg7.IsWhole)
    (arg8 : Memref sig .tc .vmem S7168x3 .f32) (harg8 : arg8.IsWhole)
    (x0 x1 x2 : Vec F S7168x256 .f32) (x3 : Vec F S256x512 .bf16) (x4 : Vec F S1x256 .f32)
    (x5 : Vec F S256x3 .bf16) (x6 : Vec F S1x3 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (outBuf x0 x1 x2 x3 x4 x5 x6)) -∗ K ⟨⟩))
      ⊢ wp frame (wpE (defs₀ (F := F)) Variants.none c none) E
          (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

/-! ## The proof data -/

variable (m : (ℓ : Loc nD τ sig) → Buf (Elt F) ℓ) (ρ : Dev nD → PrngReg)

/-- The proof data of the pipeline on core c. The arrays are as the region finds them. After the body at point t an
    input slab's buffer holds its block on the rows inside the array (past the array's end, on the last block, nothing
    is stated of it: the filler is the zero word), a whole operand's buffer holds the operand, and the output buffer
    holds 'out7 c t', a parameter: the frame needs nothing of it, the value claim names it. -/
def dats (out7 : (c : Dev nD) → (t : Fin cfg0.N) → Vec F S7168x3 .f32) (_ : Fin 1) (c : Dev nD) :
    Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => iblk m c 3 t
    | ⟨4, _⟩ => iblk m c 4 t
    | ⟨5, _⟩ => iblk m c 5 t
    | ⟨6, _⟩ => iblk m c 6 t
    | ⟨7, _⟩ => out7 c t
  Φ _ := Pipeline.ΦA spec0 c
  q _ := fullShare
  owed _ := 0

variable (out7 : (c : Dev nD) → (t : Fin cfg0.N) → Vec F S7168x3 .f32)

theorem A_eq (c : Dev nD) (w : Fin cfg0.W) : (dats m out7 0 c).A w = V m c (Pipeline.arrRef spec0 w) := by
  dsimp only [dats]

theorem after0_0 (c : Dev nD) (t : Fin cfg0.N) : (dats m out7 0 c).after 0 t
    = win0_0.fill (grid0.coords t) (fun _ => Scalar.ofBits .f32 0#32) (iblk m c 0 t) := by dsimp only [dats]
theorem after0_1 (c : Dev nD) (t : Fin cfg0.N) : (dats m out7 0 c).after 1 t
    = win0_1.fill (grid0.coords t) (fun _ => Scalar.ofBits .f32 0#32) (iblk m c 1 t) := by dsimp only [dats]
theorem after0_2 (c : Dev nD) (t : Fin cfg0.N) : (dats m out7 0 c).after 2 t
    = win0_2.fill (grid0.coords t) (fun _ => Scalar.ofBits .f32 0#32) (iblk m c 2 t) := by dsimp only [dats]
theorem after0_3 (c : Dev nD) (t : Fin cfg0.N) : (dats m out7 0 c).after 3 t = iblk m c 3 t := by dsimp only [dats]
theorem after0_4 (c : Dev nD) (t : Fin cfg0.N) : (dats m out7 0 c).after 4 t = iblk m c 4 t := by dsimp only [dats]
theorem after0_5 (c : Dev nD) (t : Fin cfg0.N) : (dats m out7 0 c).after 5 t = iblk m c 5 t := by dsimp only [dats]
theorem after0_6 (c : Dev nD) (t : Fin cfg0.N) : (dats m out7 0 c).after 6 t = iblk m c 6 t := by dsimp only [dats]
theorem after0_7 (c : Dev nD) (t : Fin cfg0.N) : (dats m out7 0 c).after 7 t = out7 c t := by dsimp only [dats]

/-! ## What the body finds in each buffer -/

/-- An input slab is fetched at every point: its buffer holds the block on the rows inside the array and, past the
    array's end, whatever it held. -/
theorem before0_0 (c : Dev nD) (t : Fin cfg0.N) (d) :
    (dats m out7 0 c).before 0 t d = win0_0.fill (grid0.coords t) d (iblk m c 0 t) :=
  ((dats m out7 0 c).before_fetched 0 t (fetch0_0 t) d).trans
    (by unfold Dat.fetched Dat.blockOf iblk; rw [A_eq]; try rfl)
theorem before0_1 (c : Dev nD) (t : Fin cfg0.N) (d) :
    (dats m out7 0 c).before 1 t d = win0_1.fill (grid0.coords t) d (iblk m c 1 t) :=
  ((dats m out7 0 c).before_fetched 1 t (fetch0_1 t) d).trans
    (by unfold Dat.fetched Dat.blockOf iblk; rw [A_eq]; try rfl)
theorem before0_2 (c : Dev nD) (t : Fin cfg0.N) (d) :
    (dats m out7 0 c).before 2 t d = win0_2.fill (grid0.coords t) d (iblk m c 2 t) :=
  ((dats m out7 0 c).before_fetched 2 t (fetch0_2 t) d).trans
    (by unfold Dat.fetched Dat.blockOf iblk; rw [A_eq]; try rfl)

/-- A whole operand is fetched once, at the first point, and the body leaves it in place: its buffer holds the
    operand at every point. -/
theorem before0_3 (c : Dev nD) (t : Fin cfg0.N) (d) : (dats m out7 0 c).before 3 t d = iblk m c 3 t :=
  ((dats m out7 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m out7 0 c).before 4 t d = iblk m c 4 t :=
  ((dats m out7 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m out7 0 c).before 5 t d = iblk m c 5 t :=
  ((dats m out7 0 c).before_in_eq_fetched 5 rfl (fun _ => rfl) (fun _ _ _ => rfl)
      (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m out7 0 c).before 6 t d = iblk m c 6 t :=
  ((dats m out7 0 c).before_in_eq_fetched 6 rfl (fun _ => rfl) (fun _ _ _ => rfl)
      (fun t => by rw [after0_6]; unfold Dat.blockOf iblk; rw [A_eq]; try rfl) t d).trans
    (by unfold Dat.fetched Dat.blockOf iblk; rw [A_eq]; try rfl)

/-- The output is written back at every point: its buffer holds contents nothing names. -/
theorem before0_7 (c : Dev nD) (t : Fin cfg0.N) (d) : (dats m out7 0 c).before 7 t d = d :=
  (dats m out7 0 c).before_out_reset 7 rfl t
    (by by_cases h : t.val = 0
        · exact .inl h
        · exact .inr ⟨h, flush0_7 _⟩) d

/-! ## The body obligation with the output forgotten -/

/-- The one output window, for a claim that reads nothing of it. -/
def forgetOut : Fin 8 → Bool := fun w => w.val == 7

def prePlain (c : Dev nD) (t : Fin cfg0.N) : sProp 𝕄 :=
  iprop((dats m out7 0 c).Φ t.castSucc ∗ (dats m out7 0 c).owesAt () t.castSucc
    ∗ (∃ d, owns (c : Thread nD τ) (st0_0 t) fullShare ((dats m out7 0 c).before 0 t d))
    ∗ (∃ d, owns (c : Thread nD τ) (st0_1 t) fullShare ((dats m out7 0 c).before 1 t d))
    ∗ (∃ d, owns (c : Thread nD τ) (st0_2 t) fullShare ((dats m out7 0 c).before 2 t d))
    ∗ (∃ d, owns (c : Thread nD τ) (st0_3 t) fullShare ((dats m out7 0 c).before 3 t d))
    ∗ (∃ d, owns (c : Thread nD τ) (st0_4 t) fullShare ((dats m out7 0 c).before 4 t d))
    ∗ (∃ d, owns (c : Thread nD τ) (st0_5 t) fullShare ((dats m out7 0 c).before 5 t d))
    ∗ (∃ d, owns (c : Thread nD τ) (st0_6 t) fullShare ((dats m out7 0 c).before 6 t d))
    ∗ (∃ X, owns (c : Thread nD τ) (st0_7 t) fullShare X))

def postForget (c : Dev nD) (t : Fin cfg0.N) : sProp 𝕄 :=
  iprop((dats m out7 0 c).Φ t.succ ∗ (dats m out7 0 c).owesAt () t.succ
    ∗ (∃ d, owns (c : Thread nD τ) (st0_0 t) fullShare (win0_0.fill (grid0.coords t) d (win0_0.cut (grid0.coords t) ((dats m out7 0 c).after 0 t))))
    ∗ (∃ d, owns (c : Thread nD τ) (st0_1 t) fullShare (win0_1.fill (grid0.coords t) d (win0_1.cut (grid0.coords t) ((dats m out7 0 c).after 1 t))))
    ∗ (∃ d, owns (c : Thread nD τ) (st0_2 t) fullShare (win0_2.fill (grid0.coords t) d (win0_2.cut (grid0.coords t) ((dats m out7 0 c).after 2 t))))
    ∗ owns (c : Thread nD τ) (st0_3 t) fullShare ((dats m out7 0 c).after 3 t)
    ∗ owns (c : Thread nD τ) (st0_4 t) fullShare ((dats m out7 0 c).after 4 t)
    ∗ owns (c : Thread nD τ) (st0_5 t) fullShare ((dats m out7 0 c).after 5 t)
    ∗ owns (c : Thread nD τ) (st0_6 t) fullShare ((dats m out7 0 c).after 6 t)
    ∗ (∃ X, owns (c : Thread nD τ) (st0_7 t) fullShare X))

/-- The body at any point, nothing asked of the output buffer. -/
theorem sound_body_forget (c : Dev nD) (t : Fin cfg0.N) :
    prePlain m out7 c t ⊢ wp frame (wpE (defs₀ (F := F)) Variants.none c none) Set.univ (bodyAt0 t)
      (fun _ => postForget m out7 c t) := by
  unfold prePlain postForget bodyAt0
  simp only [before0_0, before0_1, before0_2, before0_3, before0_4, before0_5, before0_6]
  rw [show (dats m out7 0 c).Φ t.succ = (dats m out7 0 c).Φ t.castSucc from rfl,
    show (dats m out7 0 c).owesAt () t.succ = (dats m out7 0 c).owesAt () t.castSucc from rfl,
    after0_0, after0_1, after0_2, after0_3, after0_4, after0_5, after0_6,
    Window.cut_fill, Window.cut_fill, Window.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexact H3
  isplitl [H4]; · iexact H4
  isplitl [H5]; · iexact H5
  isplitl [H6]; · iexact H6
  iexists _; iexact H7

/-- The library's body obligation, the output window forgotten. -/
theorem body_obligation_forget (c : Dev nD) :
    BodyObligationLoose (dats (F := F) m out7 0 c) (defs₀ (F := F)) Variants.none () Set.univ forgetOut := fun t => by
  rw [bigSep_W0, bigSep_W0]
  exact sound_body_forget m out7 c t

/-! ## The body obligation with the output named -/

/-- The output buffer's rows inside the array do not depend on what the input slabs' buffers hold past the array's
    end: the hypothesis under which the output can be named. -/
def RowLocal : Prop :=
  ∀ (c : Dev nD) (t : Fin cfg0.N) (d0 d1 d2 : Vec F S7168x256 .f32),
    win0_7.cut (grid0.coords t)
        (outBuf (win0_0.fill (grid0.coords t) d0 (iblk m c 0 t)) (win0_1.fill (grid0.coords t) d1 (iblk m c 1 t))
          (win0_2.fill (grid0.coords t) d2 (iblk m c 2 t)) (iblk m c 3 t) (iblk m c 4 t) (iblk m c 5 t) (iblk m c 6 t))
      = win0_7.cut (grid0.coords t) (out7 c t)

def preNamed (c : Dev nD) (t : Fin cfg0.N) : sProp 𝕄 :=
  iprop((dats m out7 0 c).Φ t.castSucc ∗ (dats m out7 0 c).owesAt () t.castSucc
    ∗ (∃ d, owns (c : Thread nD τ) (st0_0 t) fullShare ((dats m out7 0 c).before 0 t d))
    ∗ (∃ d, owns (c : Thread nD τ) (st0_1 t) fullShare ((dats m out7 0 c).before 1 t d))
    ∗ (∃ d, owns (c : Thread nD τ) (st0_2 t) fullShare ((dats m out7 0 c).before 2 t d))
    ∗ (∃ d, owns (c : Thread nD τ) (st0_3 t) fullShare ((dats m out7 0 c).before 3 t d))
    ∗ (∃ d, owns (c : Thread nD τ) (st0_4 t) fullShare ((dats m out7 0 c).before 4 t d))
    ∗ (∃ d, owns (c : Thread nD τ) (st0_5 t) fullShare ((dats m out7 0 c).before 5 t d))
    ∗ (∃ d, owns (c : Thread nD τ) (st0_6 t) fullShare ((dats m out7 0 c).before 6 t d))
    ∗ (∃ d, owns (c : Thread nD τ) (st0_7 t) fullShare ((dats m out7 0 c).before 7 t d)))

def postNamed (c : Dev nD) (t : Fin cfg0.N) : sProp 𝕄 :=
  iprop((dats m out7 0 c).Φ t.succ ∗ (dats m out7 0 c).owesAt () t.succ
    ∗ (∃ d, owns (c : Thread nD τ) (st0_0 t) fullShare (win0_0.fill (grid0.coords t) d (win0_0.cut (grid0.coords t) ((dats m out7 0 c).after 0 t))))
    ∗ (∃ d, owns (c : Thread nD τ) (st0_1 t) fullShare (win0_1.fill (grid0.coords t) d (win0_1.cut (grid0.coords t) ((dats m out7 0 c).after 1 t))))
    ∗ (∃ d, owns (c : Thread nD τ) (st0_2 t) fullShare (win0_2.fill (grid0.coords t) d (win0_2.cut (grid0.coords t) ((dats m out7 0 c).after 2 t))))
    ∗ owns (c : Thread nD τ) (st0_3 t) fullShare ((dats m out7 0 c).after 3 t)
    ∗ owns (c : Thread nD τ) (st0_4 t) fullShare ((dats m out7 0 c).after 4 t)
    ∗ owns (c : Thread nD τ) (st0_5 t) fullShare ((dats m out7 0 c).after 5 t)
    ∗ owns (c : Thread nD τ) (st0_6 t) fullShare ((dats m out7 0 c).after 6 t)
    ∗ (∃ d, owns (c : Thread nD τ) (st0_7 t) fullShare (win0_7.fill (grid0.coords t) d (win0_7.cut (grid0.coords t) ((dats m out7 0 c).after 7 t)))))

/-- The body at any point, the output buffer's rows inside the array at 'out7 c t'. -/
theorem sound_body_named (hloc : RowLocal m out7) (c : Dev nD) (t : Fin cfg0.N) :
    preNamed m out7 c t ⊢ wp frame (wpE (defs₀ (F := F)) Variants.none c none) Set.univ (bodyAt0 t)
      (fun _ => postNamed m out7 c t) := by
  unfold preNamed postNamed bodyAt0
  simp only [before0_0, before0_1, before0_2, before0_3, before0_4, before0_5, before0_6, before0_7]
  rw [show (dats m out7 0 c).Φ t.succ = (dats m out7 0 c).Φ t.castSucc from rfl,
    show (dats m out7 0 c).owesAt () t.succ = (dats m out7 0 c).owesAt () t.castSucc from rfl,
    after0_0, after0_1, after0_2, after0_3, after0_4, after0_5, after0_6, after0_7,
    Window.cut_fill, Window.cut_fill, Window.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexact H3
  isplitl [H4]; · iexact H4
  isplitl [H5]; · iexact H5
  isplitl [H6]; · iexact H6
  iexists (outBuf (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) (iblk m c 6 t))
  rw [← hloc c t d0 d1 d2, Window.fill_cut]
  iexact H7

/-- The library's body obligation, every window named. -/
theorem body_obligation_named (hloc : RowLocal m out7) (c : Dev nD) :
    BodyObligationLoose (dats (F := F) m out7 0 c) (defs₀ (F := F)) Variants.none () Set.univ := fun t => by
  rw [bigSep_W0, bigSep_W0]
  exact sound_body_named m out7 hloc c t

/-! ## The runs -/

set_option backward.isDefEq.respectTransparency.types false in
/-- Every weakly fair execution of the program terminates without fault; the three input arrays may only hold their
    entry contents, nothing is said of the result array, and every other buffer is as the region found it. -/
theorem run_forget : θ_run defs (onTc (τ := τ) (main (F := F))) (s₀ m ρ)
    (Pipeline.RDat.FramePost (cfgs 0) (fun c => (dats m out7 0 c).toRForget forgetOut) (V m)) :=
  Pipeline.RDat.θ_run_frame cfgs (0 : Fin 1) launch0 defs₀ Variants.none (fun c => (dats m out7 0 c).toRForget forgetOut) m ρ main
    (hbody := fun c => (body_obligation_forget m out7 c).toRForget)
    (hshare := fun c => ((dats m out7 0 c).toRForget forgetOut).share_full fun _ => rfl)
    (howed := fun _ _ => rfl) (V := V m) (hmain := hmain m Variants.none) (hA := A_eq m out7) (hΦ := fun _ _ => rfl)

/-- The frame: the program runs to the end, faults nowhere, and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of_forgetting m ρ (dats m (fun _ _ _ => Scalar.ofBits .f32 0#32)) forgetOut rfl rfl rfl
    (A_eq m _) (run_forget m ρ _)

set_option backward.isDefEq.respectTransparency.types false in
/-- The same run with the result array named: after the run it holds what the library computes from the blocks
    'out7 c t' written back in point order, whenever those are what the body leaves on the rows inside the array. -/
theorem run_named (hloc : RowLocal m out7) : θ_run defs (onTc (τ := τ) (main (F := F))) (s₀ m ρ)
    (Pipeline.FramePost cfgs (dats m out7) 0 (V m)) :=
  Pipeline.θ_run_frame cfgs (dats m out7) (0 : Fin 1) launch0 defs₀ Variants.none m ρ main
    (hbody := fun c => body_obligation_named m out7 hloc c)
    (hshare := fun c => (dats m out7 0 c).share_full fun _ => rfl)
    (howed := fun _ _ => rfl) (V := V m) (hmain := hmain m Variants.none) (hA := A_eq m out7) (hΦ := fun _ _ => rfl)

end Cert.Kernel.Body

end
-- ==== Proof.EntryIdeal.lean ====
/-
  The state in which the one pipelined region is entered, and the frame read off a run of it.

  Before the region the program slices the two first-layer weight matrices into their upper and lower halves, lays the
  four halves side by side into one 256 x 512 matrix, joins the two first-layer bias vectors into one row of 256, and
  reshapes the second-layer bias into a row of 3; the two weight operands change float format (the identity on values
  at the exact reading). None of these ten operations writes an argument array, so the region finds the nine arguments
  as launched. Windows 0, 1, 2 stage the three row-aligned inputs in blocks of 7168 rows, fourteen blocks for 100000
  rows, the last one reaching 352 rows past the end; windows 3 to 6 stage the four small operands whole; window 7 is
  the result, in blocks of 7168 rows of 3.

  From a run of the region to the library's post (each windowed array at what the proof data computes, each other
  buffer as at entry), the argument arrays end as launched: an input window's array is never written, and the six
  remaining arguments are no window's array.
-/
import proofs.«148667_g32006096290012_cont_8to1_b_1154_28_alg».proof.Proof.Gen.KernelIdeal.Launch
import proofs.«148667_g32006096290012_cont_8to1_b_1154_28_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

variable (m : (ℓ : Loc nD τ sig) → Buf (Elt F) ℓ) (ρ : Dev nD → PrngReg)

/-! ## The program up to the region -/

/-- Core c's buffers when the region is entered: the launch contents after the ten host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is the ten host operations and then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))

/-! ## The windows' blocks -/

/-- Window w's block at point t: the part of the block inside the array, read off the array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The frame from a run -/

/-- The argument arrays are as launched in any state satisfying the post of exact proof data. -/
theorem args_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩

/-- The argument arrays end as launched, from a run to the post of exact proof data. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-- The same from a run to the relational post of proof data read with some windows forgotten, none of them an
    input window: an input window's array may only hold what the exact data says, its entry contents. -/
theorem frame_of_forgetting (dats : (p : Fin 1) → (c : Dev nD) → Dat τ (Elt F) Unit ℕ (UR sig nD τ) ℕ (cfgs p) c)
    (fgt : Fin cfg0.W → Bool) (h0 : fgt 0 = false) (h1 : fgt 1 = false) (h2 : fgt 2 = false)
    (hA : ∀ c w, (dats 0 c).A w = V m c (Pipeline.arrRef spec0 w))
    (h : θ_run defs (onTc (τ := τ) (main (F := F))) (s₀ m ρ)
      (RDat.FramePost cfg0 (fun c => (dats 0 c).toRForget fgt) (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      (((dats 0 c).toRForget_arrAt_iff h0 _ _).mp ((h c).1 0)).trans (((dats 0 c).arrAt_in 0 rfl _).trans ((hA c 0).trans (V_main_arg0 m c))),
      (((dats 0 c).toRForget_arrAt_iff h1 _ _).mp ((h c).1 1)).trans (((dats 0 c).arrAt_in 1 rfl _).trans ((hA c 1).trans (V_main_arg1 m c))),
      (((dats 0 c).toRForget_arrAt_iff h2 _ _).mp ((h c).1 2)).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

end Cert.KernelIdeal.Entry

end
-- ==== Proof.BodyIdeal.lean ====
/-
  The body of the fused kernel at one grid point, as a triple over its eight staging buffers.

  The body reads the three input slabs (7168 rows of 256), three column ranges of the packed first-layer weights
  (columns 0..127 for the first branch, 128..255 for the second, 256..511 for the shared input), the two halves of the
  packed bias row, the two row ranges of the second-layer weights and the second-layer bias row; it computes the two
  rectified hidden slabs and their second-layer products, and stores the 7168 x 3 result into the output buffer whole.
  It changes none of the seven input buffers. What it leaves in the output buffer is one pure function of the contents
  of the seven input buffers ('outBuf'), whatever the output buffer held.
-/
import proofs.«148667_g32006096290012_cont_8to1_b_1154_28_alg».proof.Proof.EntryIdeal
import proofs.«148667_g32006096290012_cont_8to1_b_1154_28_alg».proof.Proof.Gen.KernelIdeal.Skeleton
import Idealize.ShloMosaic.Lib.Pipeline.Value

set_option maxRecDepth 16384

noncomputable section

namespace Cert.KernelIdeal.Body

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ## The rectangles the body reads and writes through -/

/-- A whole input slab. -/
abbrev rIn : Rect S7168x256 := Rect.unit (s := S7168x256) ![0, 0] S7168x256.size inb_S7168x256_S7168x256_0_0
/-- Columns 256..511 of the packed weights: the shared input's part of both branches. -/
abbrev rWc : Rect S256x512 := Rect.unit (s := S256x512) ![0, 256] S256x256.size inb_S256x512_S256x256_0_256
/-- Columns 0..127: the first branch's own part. -/
abbrev rWn : Rect S256x512 := Rect.unit (s := S256x512) ![0, 0] S256x128.size inb_S256x512_S256x128_0_0
/-- Columns 128..255: the second branch's own part. -/
abbrev rWr : Rect S256x512 := Rect.unit (s := S256x512) ![0, 128] S256x128.size inb_S256x512_S256x128_0_128
/-- The two halves of the packed bias row. -/
abbrev rBn : Rect S1x256 := Rect.unit (s := S1x256) ![0, 0] S1x128.size inb_S1x256_S1x128_0_0
abbrev rBr : Rect S1x256 := Rect.unit (s := S1x256) ![0, 128] S1x128.size inb_S1x256_S1x128_0_128
/-- Rows 0..127 and 128..255 of the second-layer weights. -/
abbrev rDn : Rect S256x3 := Rect.unit (s := S256x3) ![0, 0] S128x3.size inb_S256x3_S128x3_0_0
abbrev rDr : Rect S256x3 := Rect.unit (s := S256x3) ![128, 0] S128x3.size inb_S256x3_S128x3_128_0
/-- The second-layer bias row, and the whole output block. -/
abbrev rBd : Rect S1x3 := Rect.unit (s := S1x3) ![0, 0] S1x3.size inb_S1x3_S1x3_0_0
abbrev rOut : Rect S7168x3 := Rect.unit (s := S7168x3) ![0, 0] S7168x3.size inb_S7168x3_S7168x3_0_0

/-! ## What the body leaves in the output buffer -/

/-- The stored value, from the contents of the seven input buffers: x0, x1, x2 the first-branch, shared and
    second-branch input slabs, x3 the packed weights, x4 the packed bias row, x5 the second-layer weights, x6 the
    second-layer bias row. -/
def stored (x0 x1 x2 : Vec F S7168x256 .f32) (x3 : Vec F S256x512 .bf16) (x4 : Vec F S1x256 .f32)
    (x5 : Vec F S256x3 .bf16) (x6 : Vec F S1x3 .f32) : FVec F S7168x3 .f32 :=
  k0_pay1
    (k0_pay3 (View.ld x1 rIn) (View.ld x3 rWc) (View.ld x0 rIn) (View.ld x3 rWn) (View.ld x4 rBn) (View.ld x5 rDn))
    (k0_pay4 (View.ld x1 rIn) (View.ld x3 rWc) (View.ld x2 rIn) (View.ld x3 rWr) (View.ld x4 rBr))
    (View.ld x5 rDr) (View.ld x6 rBd)

/-- The output buffer after the body: its one store, through the whole block. -/
def outBuf (x0 x1 x2 : Vec F S7168x256 .f32) (x3 : Vec F S256x512 .bf16) (x4 : Vec F S1x256 .f32)
    (x5 : Vec F S256x3 .bf16) (x6 : Vec F S1x3 .f32) : Vec F S7168x3 .f32 :=
  View.canon [⟨rOut, stored x0 x1 x2 x3 x4 x5 x6⟩]

/-- The one store covers the output buffer. -/
theorem cover_out (p0 : Vec F S7168x3 .f32) (y : S7168x3.Idx) :
    ∃ pc ∈ ([⟨rOut, p0⟩] : List (View.Piece (Elt F) S7168x3 .f32)), y ∈ pc.1.set :=
  View.cover_of_tiled [⟨rOut, p0⟩] S7168x3.size (by rfl) y

/-- The store is through the whole block at offset zero, so the buffer ends at the stored value itself. -/
theorem outBuf_eq (x0 x1 x2 : Vec F S7168x256 .f32) (x3 : Vec F S256x512 .bf16) (x4 : Vec F S1x256 .f32)
    (x5 : Vec F S256x3 .bf16) (x6 : Vec F S1x3 .f32) :
    outBuf x0 x1 x2 x3 x4 x5 x6 = stored x0 x1 x2 x3 x4 x5 x6 := by
  have hz : (![0, 0] : Fin 2 → Nat) = fun _ => 0 := funext fun a => by fin_cases a <;> rfl
  unfold outBuf
  exact View.canon_unit_zero hz _ _

/-! ## The body's triple -/

set_option maxHeartbeats 4000000 in
/-- On whole staging memrefs, the seven inputs' at any contents and the output's at anything, the body runs to the
    continuation holding the inputs' as they were and the output's at 'outBuf' of them. -/
theorem sound_kernel (c : Dev nD) (E : Set ℕ) (i : grid0.Coords)
    (arg1 : Memref sig .tc .vmem S7168x256 .f32) (harg1 : arg1.IsWhole)
    (arg2 : Memref sig .tc .vmem S7168x256 .f32) (harg2 : arg2.IsWhole)
    (arg3 : Memref sig .tc .vmem S7168x256 .f32) (harg3 : arg3.IsWhole)
    (arg4 : Memref sig .tc .vmem S256x512 .bf16) (harg4 : arg4.IsWhole)
    (arg5 : Memref sig .tc .vmem S1x256 .f32) (harg5 : arg5.IsWhole)
    (arg6 : Memref sig .tc .vmem S256x3 .bf16) (harg6 : arg6.IsWhole)
    (arg7 : Memref sig .tc .vmem S1x3 .f32) (harg7 : arg7.IsWhole)
    (arg8 : Memref sig .tc .vmem S7168x3 .f32) (harg8 : arg8.IsWhole)
    (x0 x1 x2 : Vec F S7168x256 .f32) (x3 : Vec F S256x512 .bf16) (x4 : Vec F S1x256 .f32)
    (x5 : Vec F S256x3 .bf16) (x6 : Vec F S1x3 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (outBuf x0 x1 x2 x3 x4 x5 x6)) -∗ K ⟨⟩))
      ⊢ wp frame (wpE (defs₀ (F := F)) Variants.none c none) E
          (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

/-! ## The proof data -/

variable (m : (ℓ : Loc nD τ sig) → Buf (Elt F) ℓ) (ρ : Dev nD → PrngReg)

/-- The proof data of the pipeline on core c. The arrays are as the region finds them. After the body at point t an
    input slab's buffer holds its block on the rows inside the array (past the array's end, on the last block, nothing
    is stated of it: the filler is the zero word), a whole operand's buffer holds the operand, and the output buffer
    holds 'out7 c t', a parameter: the frame needs nothing of it, the value claim names it. -/
def dats (out7 : (c : Dev nD) → (t : Fin cfg0.N) → Vec F S7168x3 .f32) (_ : Fin 1) (c : Dev nD) :
    Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => iblk m c 3 t
    | ⟨4, _⟩ => iblk m c 4 t
    | ⟨5, _⟩ => iblk m c 5 t
    | ⟨6, _⟩ => iblk m c 6 t
    | ⟨7, _⟩ => out7 c t
  Φ _ := Pipeline.ΦA spec0 c
  q _ := fullShare
  owed _ := 0

variable (out7 : (c : Dev nD) → (t : Fin cfg0.N) → Vec F S7168x3 .f32)

theorem A_eq (c : Dev nD) (w : Fin cfg0.W) : (dats m out7 0 c).A w = V m c (Pipeline.arrRef spec0 w) := by
  dsimp only [dats]

theorem after0_0 (c : Dev nD) (t : Fin cfg0.N) : (dats m out7 0 c).after 0 t
    = win0_0.fill (grid0.coords t) (fun _ => Scalar.ofBits .f32 0#32) (iblk m c 0 t) := by dsimp only [dats]
theorem after0_1 (c : Dev nD) (t : Fin cfg0.N) : (dats m out7 0 c).after 1 t
    = win0_1.fill (grid0.coords t) (fun _ => Scalar.ofBits .f32 0#32) (iblk m c 1 t) := by dsimp only [dats]
theorem after0_2 (c : Dev nD) (t : Fin cfg0.N) : (dats m out7 0 c).after 2 t
    = win0_2.fill (grid0.coords t) (fun _ => Scalar.ofBits .f32 0#32) (iblk m c 2 t) := by dsimp only [dats]
theorem after0_3 (c : Dev nD) (t : Fin cfg0.N) : (dats m out7 0 c).after 3 t = iblk m c 3 t := by dsimp only [dats]
theorem after0_4 (c : Dev nD) (t : Fin cfg0.N) : (dats m out7 0 c).after 4 t = iblk m c 4 t := by dsimp only [dats]
theorem after0_5 (c : Dev nD) (t : Fin cfg0.N) : (dats m out7 0 c).after 5 t = iblk m c 5 t := by dsimp only [dats]
theorem after0_6 (c : Dev nD) (t : Fin cfg0.N) : (dats m out7 0 c).after 6 t = iblk m c 6 t := by dsimp only [dats]
theorem after0_7 (c : Dev nD) (t : Fin cfg0.N) : (dats m out7 0 c).after 7 t = out7 c t := by dsimp only [dats]

/-! ## What the body finds in each buffer -/

/-- An input slab is fetched at every point: its buffer holds the block on the rows inside the array and, past the
    array's end, whatever it held. -/
theorem before0_0 (c : Dev nD) (t : Fin cfg0.N) (d) :
    (dats m out7 0 c).before 0 t d = win0_0.fill (grid0.coords t) d (iblk m c 0 t) :=
  ((dats m out7 0 c).before_fetched 0 t (fetch0_0 t) d).trans
    (by unfold Dat.fetched Dat.blockOf iblk; rw [A_eq]; try rfl)
theorem before0_1 (c : Dev nD) (t : Fin cfg0.N) (d) :
    (dats m out7 0 c).before 1 t d = win0_1.fill (grid0.coords t) d (iblk m c 1 t) :=
  ((dats m out7 0 c).before_fetched 1 t (fetch0_1 t) d).trans
    (by unfold Dat.fetched Dat.blockOf iblk; rw [A_eq]; try rfl)
theorem before0_2 (c : Dev nD) (t : Fin cfg0.N) (d) :
    (dats m out7 0 c).before 2 t d = win0_2.fill (grid0.coords t) d (iblk m c 2 t) :=
  ((dats m out7 0 c).before_fetched 2 t (fetch0_2 t) d).trans
    (by unfold Dat.fetched Dat.blockOf iblk; rw [A_eq]; try rfl)

/-- A whole operand is fetched once, at the first point, and the body leaves it in place: its buffer holds the
    operand at every point. -/
theorem before0_3 (c : Dev nD) (t : Fin cfg0.N) (d) : (dats m out7 0 c).before 3 t d = iblk m c 3 t :=
  ((dats m out7 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m out7 0 c).before 4 t d = iblk m c 4 t :=
  ((dats m out7 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m out7 0 c).before 5 t d = iblk m c 5 t :=
  ((dats m out7 0 c).before_in_eq_fetched 5 rfl (fun _ => rfl) (fun _ _ _ => rfl)
      (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m out7 0 c).before 6 t d = iblk m c 6 t :=
  ((dats m out7 0 c).before_in_eq_fetched 6 rfl (fun _ => rfl) (fun _ _ _ => rfl)
      (fun t => by rw [after0_6]; unfold Dat.blockOf iblk; rw [A_eq]; try rfl) t d).trans
    (by unfold Dat.fetched Dat.blockOf iblk; rw [A_eq]; try rfl)

/-- The output is written back at every point: its buffer holds contents nothing names. -/
theorem before0_7 (c : Dev nD) (t : Fin cfg0.N) (d) : (dats m out7 0 c).before 7 t d = d :=
  (dats m out7 0 c).before_out_reset 7 rfl t
    (by by_cases h : t.val = 0
        · exact .inl h
        · exact .inr ⟨h, flush0_7 _⟩) d

/-! ## The body obligation with the output forgotten -/

/-- The one output window, for a claim that reads nothing of it. -/
def forgetOut : Fin 8 → Bool := fun w => w.val == 7

def prePlain (c : Dev nD) (t : Fin cfg0.N) : sProp 𝕄 :=
  iprop((dats m out7 0 c).Φ t.castSucc ∗ (dats m out7 0 c).owesAt () t.castSucc
    ∗ (∃ d, owns (c : Thread nD τ) (st0_0 t) fullShare ((dats m out7 0 c).before 0 t d))
    ∗ (∃ d, owns (c : Thread nD τ) (st0_1 t) fullShare ((dats m out7 0 c).before 1 t d))
    ∗ (∃ d, owns (c : Thread nD τ) (st0_2 t) fullShare ((dats m out7 0 c).before 2 t d))
    ∗ (∃ d, owns (c : Thread nD τ) (st0_3 t) fullShare ((dats m out7 0 c).before 3 t d))
    ∗ (∃ d, owns (c : Thread nD τ) (st0_4 t) fullShare ((dats m out7 0 c).before 4 t d))
    ∗ (∃ d, owns (c : Thread nD τ) (st0_5 t) fullShare ((dats m out7 0 c).before 5 t d))
    ∗ (∃ d, owns (c : Thread nD τ) (st0_6 t) fullShare ((dats m out7 0 c).before 6 t d))
    ∗ (∃ X, owns (c : Thread nD τ) (st0_7 t) fullShare X))

def postForget (c : Dev nD) (t : Fin cfg0.N) : sProp 𝕄 :=
  iprop((dats m out7 0 c).Φ t.succ ∗ (dats m out7 0 c).owesAt () t.succ
    ∗ (∃ d, owns (c : Thread nD τ) (st0_0 t) fullShare (win0_0.fill (grid0.coords t) d (win0_0.cut (grid0.coords t) ((dats m out7 0 c).after 0 t))))
    ∗ (∃ d, owns (c : Thread nD τ) (st0_1 t) fullShare (win0_1.fill (grid0.coords t) d (win0_1.cut (grid0.coords t) ((dats m out7 0 c).after 1 t))))
    ∗ (∃ d, owns (c : Thread nD τ) (st0_2 t) fullShare (win0_2.fill (grid0.coords t) d (win0_2.cut (grid0.coords t) ((dats m out7 0 c).after 2 t))))
    ∗ owns (c : Thread nD τ) (st0_3 t) fullShare ((dats m out7 0 c).after 3 t)
    ∗ owns (c : Thread nD τ) (st0_4 t) fullShare ((dats m out7 0 c).after 4 t)
    ∗ owns (c : Thread nD τ) (st0_5 t) fullShare ((dats m out7 0 c).after 5 t)
    ∗ owns (c : Thread nD τ) (st0_6 t) fullShare ((dats m out7 0 c).after 6 t)
    ∗ (∃ X, owns (c : Thread nD τ) (st0_7 t) fullShare X))

/-- The body at any point, nothing asked of the output buffer. -/
theorem sound_body_forget (c : Dev nD) (t : Fin cfg0.N) :
    prePlain m out7 c t ⊢ wp frame (wpE (defs₀ (F := F)) Variants.none c none) Set.univ (bodyAt0 t)
      (fun _ => postForget m out7 c t) := by
  unfold prePlain postForget bodyAt0
  simp only [before0_0, before0_1, before0_2, before0_3, before0_4, before0_5, before0_6]
  rw [show (dats m out7 0 c).Φ t.succ = (dats m out7 0 c).Φ t.castSucc from rfl,
    show (dats m out7 0 c).owesAt () t.succ = (dats m out7 0 c).owesAt () t.castSucc from rfl,
    after0_0, after0_1, after0_2, after0_3, after0_4, after0_5, after0_6,
    Window.cut_fill, Window.cut_fill, Window.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexact H3
  isplitl [H4]; · iexact H4
  isplitl [H5]; · iexact H5
  isplitl [H6]; · iexact H6
  iexists _; iexact H7

/-- The library's body obligation, the output window forgotten. -/
theorem body_obligation_forget (c : Dev nD) :
    BodyObligationLoose (dats (F := F) m out7 0 c) (defs₀ (F := F)) Variants.none () Set.univ forgetOut := fun t => by
  rw [bigSep_W0, bigSep_W0]
  exact sound_body_forget m out7 c t

/-! ## The body obligation with the output named -/

/-- The output buffer's rows inside the array do not depend on what the input slabs' buffers hold past the array's
    end: the hypothesis under which the output can be named. -/
def RowLocal : Prop :=
  ∀ (c : Dev nD) (t : Fin cfg0.N) (d0 d1 d2 : Vec F S7168x256 .f32),
    win0_7.cut (grid0.coords t)
        (outBuf (win0_0.fill (grid0.coords t) d0 (iblk m c 0 t)) (win0_1.fill (grid0.coords t) d1 (iblk m c 1 t))
          (win0_2.fill (grid0.coords t) d2 (iblk m c 2 t)) (iblk m c 3 t) (iblk m c 4 t) (iblk m c 5 t) (iblk m c 6 t))
      = win0_7.cut (grid0.coords t) (out7 c t)

def preNamed (c : Dev nD) (t : Fin cfg0.N) : sProp 𝕄 :=
  iprop((dats m out7 0 c).Φ t.castSucc ∗ (dats m out7 0 c).owesAt () t.castSucc
    ∗ (∃ d, owns (c : Thread nD τ) (st0_0 t) fullShare ((dats m out7 0 c).before 0 t d))
    ∗ (∃ d, owns (c : Thread nD τ) (st0_1 t) fullShare ((dats m out7 0 c).before 1 t d))
    ∗ (∃ d, owns (c : Thread nD τ) (st0_2 t) fullShare ((dats m out7 0 c).before 2 t d))
    ∗ (∃ d, owns (c : Thread nD τ) (st0_3 t) fullShare ((dats m out7 0 c).before 3 t d))
    ∗ (∃ d, owns (c : Thread nD τ) (st0_4 t) fullShare ((dats m out7 0 c).before 4 t d))
    ∗ (∃ d, owns (c : Thread nD τ) (st0_5 t) fullShare ((dats m out7 0 c).before 5 t d))
    ∗ (∃ d, owns (c : Thread nD τ) (st0_6 t) fullShare ((dats m out7 0 c).before 6 t d))
    ∗ (∃ d, owns (c : Thread nD τ) (st0_7 t) fullShare ((dats m out7 0 c).before 7 t d)))

def postNamed (c : Dev nD) (t : Fin cfg0.N) : sProp 𝕄 :=
  iprop((dats m out7 0 c).Φ t.succ ∗ (dats m out7 0 c).owesAt () t.succ
    ∗ (∃ d, owns (c : Thread nD τ) (st0_0 t) fullShare (win0_0.fill (grid0.coords t) d (win0_0.cut (grid0.coords t) ((dats m out7 0 c).after 0 t))))
    ∗ (∃ d, owns (c : Thread nD τ) (st0_1 t) fullShare (win0_1.fill (grid0.coords t) d (win0_1.cut (grid0.coords t) ((dats m out7 0 c).after 1 t))))
    ∗ (∃ d, owns (c : Thread nD τ) (st0_2 t) fullShare (win0_2.fill (grid0.coords t) d (win0_2.cut (grid0.coords t) ((dats m out7 0 c).after 2 t))))
    ∗ owns (c : Thread nD τ) (st0_3 t) fullShare ((dats m out7 0 c).after 3 t)
    ∗ owns (c : Thread nD τ) (st0_4 t) fullShare ((dats m out7 0 c).after 4 t)
    ∗ owns (c : Thread nD τ) (st0_5 t) fullShare ((dats m out7 0 c).after 5 t)
    ∗ owns (c : Thread nD τ) (st0_6 t) fullShare ((dats m out7 0 c).after 6 t)
    ∗ (∃ d, owns (c : Thread nD τ) (st0_7 t) fullShare (win0_7.fill (grid0.coords t) d (win0_7.cut (grid0.coords t) ((dats m out7 0 c).after 7 t)))))

/-- The body at any point, the output buffer's rows inside the array at 'out7 c t'. -/
theorem sound_body_named (hloc : RowLocal m out7) (c : Dev nD) (t : Fin cfg0.N) :
    preNamed m out7 c t ⊢ wp frame (wpE (defs₀ (F := F)) Variants.none c none) Set.univ (bodyAt0 t)
      (fun _ => postNamed m out7 c t) := by
  unfold preNamed postNamed bodyAt0
  simp only [before0_0, before0_1, before0_2, before0_3, before0_4, before0_5, before0_6, before0_7]
  rw [show (dats m out7 0 c).Φ t.succ = (dats m out7 0 c).Φ t.castSucc from rfl,
    show (dats m out7 0 c).owesAt () t.succ = (dats m out7 0 c).owesAt () t.castSucc from rfl,
    after0_0, after0_1, after0_2, after0_3, after0_4, after0_5, after0_6, after0_7,
    Window.cut_fill, Window.cut_fill, Window.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexact H3
  isplitl [H4]; · iexact H4
  isplitl [H5]; · iexact H5
  isplitl [H6]; · iexact H6
  iexists (outBuf (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) (iblk m c 6 t))
  rw [← hloc c t d0 d1 d2, Window.fill_cut]
  iexact H7

/-- The library's body obligation, every window named. -/
theorem body_obligation_named (hloc : RowLocal m out7) (c : Dev nD) :
    BodyObligationLoose (dats (F := F) m out7 0 c) (defs₀ (F := F)) Variants.none () Set.univ := fun t => by
  rw [bigSep_W0, bigSep_W0]
  exact sound_body_named m out7 hloc c t

/-! ## The runs -/

set_option backward.isDefEq.respectTransparency.types false in
/-- Every weakly fair execution of the program terminates without fault; the three input arrays may only hold their
    entry contents, nothing is said of the result array, and every other buffer is as the region found it. -/
theorem run_forget : θ_run defs (onTc (τ := τ) (main (F := F))) (s₀ m ρ)
    (Pipeline.RDat.FramePost (cfgs 0) (fun c => (dats m out7 0 c).toRForget forgetOut) (V m)) :=
  Pipeline.RDat.θ_run_frame cfgs (0 : Fin 1) launch0 defs₀ Variants.none (fun c => (dats m out7 0 c).toRForget forgetOut) m ρ main
    (hbody := fun c => (body_obligation_forget m out7 c).toRForget)
    (hshare := fun c => ((dats m out7 0 c).toRForget forgetOut).share_full fun _ => rfl)
    (howed := fun _ _ => rfl) (V := V m) (hmain := hmain m Variants.none) (hA := A_eq m out7) (hΦ := fun _ _ => rfl)

/-- The frame: the program runs to the end, faults nowhere, and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of_forgetting m ρ (dats m (fun _ _ _ => Scalar.ofBits .f32 0#32)) forgetOut rfl rfl rfl
    (A_eq m _) (run_forget m ρ _)

set_option backward.isDefEq.respectTransparency.types false in
/-- The same run with the result array named: after the run it holds what the library computes from the blocks
    'out7 c t' written back in point order, whenever those are what the body leaves on the rows inside the array. -/
theorem run_named (hloc : RowLocal m out7) : θ_run defs (onTc (τ := τ) (main (F := F))) (s₀ m ρ)
    (Pipeline.FramePost cfgs (dats m out7) 0 (V m)) :=
  Pipeline.θ_run_frame cfgs (dats m out7) (0 : Fin 1) launch0 defs₀ Variants.none m ρ main
    (hbody := fun c => body_obligation_named m out7 hloc c)
    (hshare := fun c => (dats m out7 0 c).share_full fun _ => rfl)
    (howed := fun _ _ => rfl) (V := V m) (hmain := hmain m Variants.none) (hA := A_eq m out7) (hΦ := fun _ _ => rfl)

end Cert.KernelIdeal.Body

end
-- ==== Proof.Spec.lean ====
/-
  The function both programs compute, by coordinates, on the extended reals.

  Three row-aligned inputs n, c, r of 256 columns; two affine maps of 512 inputs and 128 outputs (Wn, bn) and (Wr, br);
  one affine map of 256 inputs and 3 outputs (Wd, bd). Row p of the result is

      out[p, j] = ( Σ_{k<128} hn[p, k] · Wd[k, j]  +  Σ_{k<128} hr[p, k] · Wd[128 + k, j] ) + bd[j]
      hn[p, k]  = max( ( Σ_{e<256} n[p, e] · Wn[e, k]  +  Σ_{e<256} c[p, e] · Wn[256 + e, k] ) + bn[k] , 0 )
      hr[p, k]  = max( ( Σ_{e<256} r[p, e] · Wr[e, k]  +  Σ_{e<256} c[p, e] · Wr[256 + e, k] ) + br[k] , 0 )

  that is, a matrix product against a concatenation [x | c] written as the sum of the two half products. A row of the
  result depends on the same row of n, c and r only. The zero of the rectifier is kept as the float word it is printed
  with; nothing here evaluates it.

  The one law that relates the two arrangements of such a product: a sum over an index range of even length is the sum
  over its lower half plus the sum over its upper half (addition of extended reals is commutative and associative, so this
  needs no finiteness).
-/
import Idealize.ShloMosaic.PureOps.Ideal
import Idealize.ShloMosaic.Lib.ValueIdx

noncomputable section

open scoped BigOperators

namespace Cert.TwoBranch

open Idealize.ShloMosaic Idealize.ShloMosaic.ValueIdx

/-- A matrix and a vector of extended reals over literal extents. -/
abbrev Mat (a b : Nat) : Type := (⟨2, ![a, b]⟩ : Shape).Idx → EReal
abbrev Vc (a : Nat) : Type := (⟨1, ![a]⟩ : Shape).Idx → EReal

/-- Position e of the lower half, and of the upper half, of a range of 512. -/
def lo256 (e : Fin 256) : Fin 512 := ⟨e.val, by omega⟩
def hi256 (e : Fin 256) : Fin 512 := ⟨256 + e.val, by omega⟩
/-- The same for a range of 256. -/
def lo128 (k : Fin 128) : Fin 256 := ⟨k.val, by omega⟩
def hi128 (k : Fin 128) : Fin 256 := ⟨128 + k.val, by omega⟩

@[simp] theorem lo256_val (e : Fin 256) : (lo256 e).val = e.val := rfl
@[simp] theorem hi256_val (e : Fin 256) : (hi256 e).val = 256 + e.val := rfl
@[simp] theorem lo128_val (k : Fin 128) : (lo128 k).val = k.val := rfl
@[simp] theorem hi128_val (k : Fin 128) : (hi128 k).val = 128 + k.val := rfl

/-- A sum over 512 positions is the sum over the lower 256 plus the sum over the upper 256. -/
theorem sum_halves512 (f : Fin 512 → EReal) :
    ∑ e : Fin 512, f e = (∑ e : Fin 256, f (lo256 e)) + ∑ e : Fin 256, f (hi256 e) :=
  Fin.sum_univ_add (a := 256) (b := 256) f

/-- A sum over 256 positions is the sum over the lower 128 plus the sum over the upper 128. -/
theorem sum_halves256 (f : Fin 256 → EReal) :
    ∑ k : Fin 256, f k = (∑ k : Fin 128, f (lo128 k)) + ∑ k : Fin 128, f (hi128 k) :=
  Fin.sum_univ_add (a := 128) (b := 128) f

/-- One hidden unit of a branch at one row: the rectified affine form of the row x beside the shared row c. -/
def hidden (x c : Fin 256 → EReal) (W : Mat 512 128) (b : Vc 128) (k : Fin 128) : EReal :=
  max (((∑ e : Fin 256, x e * W (ix2 (lo256 e) k)) + ∑ e : Fin 256, c e * W (ix2 (hi256 e) k)) + b (ix1 k))
    (Ideal.ofBits .f32 0x00000000#32)

/-- One entry of the result's row, from that row of the three inputs. -/
def outRow (xn xc xr : Fin 256 → EReal) (Wn : Mat 512 128) (bn : Vc 128) (Wr : Mat 512 128) (br : Vc 128)
    (Wd : Mat 256 3) (bd : Vc 3) (j : Fin 3) : EReal :=
  ((∑ k : Fin 128, hidden xn xc Wn bn k * Wd (ix2 (lo128 k) j))
      + ∑ k : Fin 128, hidden xr xc Wr br k * Wd (ix2 (hi128 k) j)) + bd (ix1 j)

/-- Row p of an array of 256 columns. -/
def rowOf {N : Nat} (x : Mat N 256) (p : Fin N) : Fin 256 → EReal := fun e => x (ix2 p e)

/-- The result, entry (p, j). -/
def Gc (n c r : Mat 100000 256) (Wn : Mat 512 128) (bn : Vc 128) (Wr : Mat 512 128) (br : Vc 128)
    (Wd : Mat 256 3) (bd : Vc 3) (p : Fin 100000) (j : Fin 3) : EReal :=
  outRow (rowOf n p) (rowOf c p) (rowOf r p) Wn bn Wr br Wd bd j

/-- The result as an array. -/
def G (n c r : Mat 100000 256) (Wn : Mat 512 128) (bn : Vc 128) (Wr : Mat 512 128) (br : Vc 128)
    (Wd : Mat 256 3) (bd : Vc 3) : Mat 100000 3 :=
  fun i => Gc n c r Wn bn Wr br Wd bd (i 0) (i 1)

theorem G_ix2 (n c r : Mat 100000 256) (Wn : Mat 512 128) (bn : Vc 128) (Wr : Mat 512 128) (br : Vc 128)
    (Wd : Mat 256 3) (bd : Vc 3) (p : Fin 100000) (j : Fin 3) :
    G n c r Wn bn Wr br Wd bd (ix2 p j) = Gc n c r Wn bn Wr br Wd bd p j := rfl

end Cert.TwoBranch

end
-- ==== Proof.ArraysIdeal.lean ====
/-
  The windows' blocks as parts of the argument arrays, and the result array after the run.

  The three input windows and the result window move together down the rows: at grid point t each holds rows
  7168 t, ..., 7168 t + 7167 of its array, except at the last point, t = 13, where only the first 6816 rows lie inside
  the 100000-row arrays and only those are transferred. The four small operands are staged whole. So, on the rows a
  transfer moves, an input slab's buffer holds the corresponding rows of its array, and the 14 blocks the result
  window writes back are disjoint and together are all 100000 rows: if what is written back at every point is that
  point's block of one function of the whole arrays, the result array ends holding that function.
-/
import proofs.«148667_g32006096290012_cont_8to1_b_1154_28_alg».proof.Proof.BodyIdeal
import proofs.«148667_g32006096290012_cont_8to1_b_1154_28_alg».proof.Proof.Spec
import Idealize.ShloMosaic.Lib.ValueIdx
import Idealize.ShloMosaic.Lib.Pipeline.Value

set_option maxRecDepth 16384

noncomputable section

namespace Cert.KernelIdeal.Arrays

open Cert.KernelIdeal Cert.KernelIdeal.Gen Cert.KernelIdeal.Entry Cert.KernelIdeal.Body Cert.TwoBranch
open Idealize.ShloMosaic Idealize.ShloMosaic.TcCoe Idealize.ShloMosaic.ValueIdx
open Idealize.SL Idealize.SL.Sem
open Idealize.ShloMosaic.Pipeline (Dat Cfg Window)

/-! ## The printed index maps and cuts, decided over the grid -/

/-- The moving windows' block index is the point on the row axis and zero on the column axis; the whole operands'
    is zero on both. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The rows a transfer moves: all 7168 of the block, but 6816 at the last point; all columns always. -/
theorem xsize_facts : ∀ t : Fin cfg0.N,
    win0_7.xsize (grid0.coords t) (0 : Fin 2) = (if t.val = 13 then 6816 else 7168)
    ∧ win0_0.xsize (grid0.coords t) (0 : Fin 2) = win0_7.xsize (grid0.coords t) (0 : Fin 2)
    ∧ win0_1.xsize (grid0.coords t) (0 : Fin 2) = win0_7.xsize (grid0.coords t) (0 : Fin 2)
    ∧ win0_2.xsize (grid0.coords t) (0 : Fin 2) = win0_7.xsize (grid0.coords t) (0 : Fin 2)
    ∧ win0_0.xsize (grid0.coords t) (1 : Fin 2) = 256 ∧ win0_1.xsize (grid0.coords t) (1 : Fin 2) = 256
    ∧ win0_2.xsize (grid0.coords t) (1 : Fin 2) = 256 ∧ win0_7.xsize (grid0.coords t) (1 : Fin 2) = 3 :=
  (by decide +kernel : ∀ t : Fin grid0.N, _)

variable (m : (ℓ : Loc nD τ sig) → Buf (Elt Ideal) ℓ)

/-! ## An input slab's buffer on the rows a transfer moves -/

/-- Row p of the buffer, for p among the rows moved at point t, is row 7168 t + p of the array, whatever the buffer
    held before the fetch. -/
theorem slab0 (c : Dev nD) (t : Fin cfg0.N) (d : Vec Ideal S7168x256 .f32) (p : Fin 7168) (e : Fin 256)
    (hp : p.val < win0_7.xsize (grid0.coords t) (0 : Fin 2)) (P : Fin 100000) (hP : P.val = t.val * 7168 + p.val) :
    win0_0.fill (grid0.coords t) d (iblk m c 0 t) (ix2 p e) = m ((c : Thread nD τ).loc main_arg0) (ix2 P e) := by
  obtain ⟨i00, i01, i10, i11, i20, i21, -⟩ := idx_facts t
  obtain ⟨-, x00, x10, x20, x01, x11, x21, -⟩ := xsize_facts t
  have hm : win0_0.moved (grid0.coords t) (ix2 p e) = true :=
    (win0_0.moved_iff _ _).mpr fun a => match a with
      | ⟨0, _⟩ => by show p.val < win0_0.xsize (grid0.coords t) (0 : Fin 2); rw [x00]; exact hp
      | ⟨1, _⟩ => by show e.val < win0_0.xsize (grid0.coords t) (1 : Fin 2); rw [x01]; exact e.isLt
  unfold Window.fill
  rw [dif_pos hm]
  unfold iblk
  show V m c main_arg0 (((cfg0.win 0).blk t).view.emb _) = _
  rw [V_main_arg0]
  refine congrArg _ (funext fun a => Fin.ext ?_)
  match a with
  | ⟨0, _⟩ => show win0_0.index t (0 : Fin 2) * 7168 + 1 * p.val = P.val; rw [i00, hP]; omega
  | ⟨1, _⟩ => show win0_0.index t (1 : Fin 2) * 256 + 1 * e.val = e.val; rw [i01]; omega
theorem slab1 (c : Dev nD) (t : Fin cfg0.N) (d : Vec Ideal S7168x256 .f32) (p : Fin 7168) (e : Fin 256)
    (hp : p.val < win0_7.xsize (grid0.coords t) (0 : Fin 2)) (P : Fin 100000) (hP : P.val = t.val * 7168 + p.val) :
    win0_1.fill (grid0.coords t) d (iblk m c 1 t) (ix2 p e) = m ((c : Thread nD τ).loc main_arg1) (ix2 P e) := by
  obtain ⟨i00, i01, i10, i11, i20, i21, -⟩ := idx_facts t
  obtain ⟨-, x00, x10, x20, x01, x11, x21, -⟩ := xsize_facts t
  have hm : win0_1.moved (grid0.coords t) (ix2 p e) = true :=
    (win0_1.moved_iff _ _).mpr fun a => match a with
      | ⟨0, _⟩ => by show p.val < win0_1.xsize (grid0.coords t) (0 : Fin 2); rw [x10]; exact hp
      | ⟨1, _⟩ => by show e.val < win0_1.xsize (grid0.coords t) (1 : Fin 2); rw [x11]; exact e.isLt
  unfold Window.fill
  rw [dif_pos hm]
  unfold iblk
  show V m c main_arg1 (((cfg0.win 1).blk t).view.emb _) = _
  rw [V_main_arg1]
  refine congrArg _ (funext fun a => Fin.ext ?_)
  match a with
  | ⟨0, _⟩ => show win0_1.index t (0 : Fin 2) * 7168 + 1 * p.val = P.val; rw [i10, hP]; omega
  | ⟨1, _⟩ => show win0_1.index t (1 : Fin 2) * 256 + 1 * e.val = e.val; rw [i11]; omega
theorem slab2 (c : Dev nD) (t : Fin cfg0.N) (d : Vec Ideal S7168x256 .f32) (p : Fin 7168) (e : Fin 256)
    (hp : p.val < win0_7.xsize (grid0.coords t) (0 : Fin 2)) (P : Fin 100000) (hP : P.val = t.val * 7168 + p.val) :
    win0_2.fill (grid0.coords t) d (iblk m c 2 t) (ix2 p e) = m ((c : Thread nD τ).loc main_arg2) (ix2 P e) := by
  obtain ⟨i00, i01, i10, i11, i20, i21, -⟩ := idx_facts t
  obtain ⟨-, x00, x10, x20, x01, x11, x21, -⟩ := xsize_facts t
  have hm : win0_2.moved (grid0.coords t) (ix2 p e) = true :=
    (win0_2.moved_iff _ _).mpr fun a => match a with
      | ⟨0, _⟩ => by show p.val < win0_2.xsize (grid0.coords t) (0 : Fin 2); rw [x20]; exact hp
      | ⟨1, _⟩ => by show e.val < win0_2.xsize (grid0.coords t) (1 : Fin 2); rw [x21]; exact e.isLt
  unfold Window.fill
  rw [dif_pos hm]
  unfold iblk
  show V m c main_arg2 (((cfg0.win 2).blk t).view.emb _) = _
  rw [V_main_arg2]
  refine congrArg _ (funext fun a => Fin.ext ?_)
  match a with
  | ⟨0, _⟩ => show win0_2.index t (0 : Fin 2) * 7168 + 1 * p.val = P.val; rw [i20, hP]; omega
  | ⟨1, _⟩ => show win0_2.index t (1 : Fin 2) * 256 + 1 * e.val = e.val; rw [i21]; omega

/-! ## The whole operands -/

/-- A whole operand's block is the operand as the region finds it. -/
theorem whole3 (c : Dev nD) (t : Fin cfg0.N) (a0 : Fin 256) (a1 : Fin 512) :
    iblk m c 3 t (ix2 a0 a1) = V m c main_v5 (ix2 a0 a1) := by
  obtain ⟨-, -, -, -, -, -, -, -, i30, i31, i40, i41, i50, i51, i60, i61⟩ := idx_facts t
  unfold iblk
  show V m c main_v5 (((cfg0.win 3).blk t).view.emb _) = _
  refine congrArg _ (funext fun a => Fin.ext ?_)
  match a with
  | ⟨0, _⟩ => show win0_3.index t (0 : Fin 2) * 256 + 1 * a0.val = a0.val; rw [i30]; omega
  | ⟨1, _⟩ => show win0_3.index t (1 : Fin 2) * 512 + 1 * a1.val = a1.val; rw [i31]; omega
theorem whole4 (c : Dev nD) (t : Fin cfg0.N) (a0 : Fin 1) (a1 : Fin 256) :
    iblk m c 4 t (ix2 a0 a1) = V m c main_v7 (ix2 a0 a1) := by
  obtain ⟨-, -, -, -, -, -, -, -, i30, i31, i40, i41, i50, i51, i60, i61⟩ := idx_facts t
  unfold iblk
  show V m c main_v7 (((cfg0.win 4).blk t).view.emb _) = _
  refine congrArg _ (funext fun a => Fin.ext ?_)
  match a with
  | ⟨0, _⟩ => show win0_4.index t (0 : Fin 2) * 1 + 1 * a0.val = a0.val; rw [i40]; omega
  | ⟨1, _⟩ => show win0_4.index t (1 : Fin 2) * 256 + 1 * a1.val = a1.val; rw [i41]; omega
theorem whole5 (c : Dev nD) (t : Fin cfg0.N) (a0 : Fin 256) (a1 : Fin 3) :
    iblk m c 5 t (ix2 a0 a1) = V m c main_v8 (ix2 a0 a1) := by
  obtain ⟨-, -, -, -, -, -, -, -, i30, i31, i40, i41, i50, i51, i60, i61⟩ := idx_facts t
  unfold iblk
  show V m c main_v8 (((cfg0.win 5).blk t).view.emb _) = _
  refine congrArg _ (funext fun a => Fin.ext ?_)
  match a with
  | ⟨0, _⟩ => show win0_5.index t (0 : Fin 2) * 256 + 1 * a0.val = a0.val; rw [i50]; omega
  | ⟨1, _⟩ => show win0_5.index t (1 : Fin 2) * 3 + 1 * a1.val = a1.val; rw [i51]; omega
theorem whole6 (c : Dev nD) (t : Fin cfg0.N) (a0 : Fin 1) (a1 : Fin 3) :
    iblk m c 6 t (ix2 a0 a1) = V m c main_v9 (ix2 a0 a1) := by
  obtain ⟨-, -, -, -, -, -, -, -, i30, i31, i40, i41, i50, i51, i60, i61⟩ := idx_facts t
  unfold iblk
  show V m c main_v9 (((cfg0.win 6).blk t).view.emb _) = _
  refine congrArg _ (funext fun a => Fin.ext ?_)
  match a with
  | ⟨0, _⟩ => show win0_6.index t (0 : Fin 2) * 1 + 1 * a0.val = a0.val; rw [i60]; omega
  | ⟨1, _⟩ => show win0_6.index t (1 : Fin 2) * 3 + 1 * a1.val = a1.val; rw [i61]; omega

/-! ## The result array -/

/-- The function of the nine argument arrays the result is shown to be. -/
def Garr (c : Dev nD) : Buf (Elt Ideal) ((c : Thread nD τ).loc main_v10) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What the output buffer is said to hold after the body at point t: on the rows written back, that point's block of
    the function; elsewhere the zero word, which nothing reads. -/
def out7 (c : Dev nD) (t : Fin cfg0.N) : Vec Ideal S7168x3 .f32 :=
  win0_7.fill (grid0.coords t) (fun _ => Scalar.ofBits (F := Ideal) .f32 0#32) ((win0_7.blk t).view.read (Elt Ideal) (Garr m c))

/-- What point t writes back is its block of the function. -/
theorem flushed7 (c : Dev nD) (t : Fin cfg0.N) :
    (dats m (out7 m) 0 c).flushed 7 t = ((cfg0.win 7).blk t).view.read (Elt Ideal) (Garr m c) := by
  show (cfg0.win 7).cut (grid0.coords t) ((dats m (out7 m) 0 c).after 7 t) = _
  rw [after0_7]
  exact win0_7.cut_fill _ _ _

/-- An index of the result array is in point t's block iff each coordinate is in the block's moved range. -/
theorem mem_blk7 (t : Fin cfg0.N) (i : S100000x3.Idx) :
    i ∈ ((cfg0.win 7).blk t).view.set ↔ ∀ a : Fin 2, win0_7.index t a * S7168x3.size a ≤ (i a).val
      ∧ (i a).val < win0_7.index t a * S7168x3.size a + win0_7.xsize (grid0.coords t) a := by
  show i ∈ ((View.whole main_v10).slice (win0_7.rect t)).set ↔ _
  rw [View.set_slice_whole, Rect.mem_set_unit]
  exact Iff.rfl

/-- Every row is in the block of the point its number divided by 7168 names. -/
theorem cover7 (i : S100000x3.Idx) :
    ∃ t : Fin cfg0.N, (cfg0.win 7).flush t = true ∧ i ∈ ((cfg0.win 7).blk t).view.set := by
  have hi0 : (i 0).val < 100000 := (i 0).isLt
  have hi1 : (i 1).val < 3 := (i 1).isLt
  have ht : (i 0).val / 7168 < cfg0.N := by show _ < grid0.N; rw [N_0]; omega
  refine ⟨⟨(i 0).val / 7168, ht⟩, flush0_7 _, ?_⟩
  rw [mem_blk7]
  obtain ⟨-, -, -, -, -, -, i70, i71, -⟩ := idx_facts ⟨(i 0).val / 7168, ht⟩
  obtain ⟨x70, -, -, -, -, -, -, x71⟩ := xsize_facts ⟨(i 0).val / 7168, ht⟩
  intro a
  match a with
  | ⟨0, _⟩ =>
    show win0_7.index ⟨(i 0).val / 7168, ht⟩ (0 : Fin 2) * 7168 ≤ (i 0).val
      ∧ (i 0).val < win0_7.index ⟨(i 0).val / 7168, ht⟩ (0 : Fin 2) * 7168 + win0_7.xsize (grid0.coords ⟨(i 0).val / 7168, ht⟩) (0 : Fin 2)
    rw [i70, x70]
    show (i 0).val / 7168 * 7168 ≤ (i 0).val ∧ (i 0).val < (i 0).val / 7168 * 7168 + (if (i 0).val / 7168 = 13 then 6816 else 7168)
    split <;> omega
  | ⟨1, _⟩ =>
    show win0_7.index ⟨(i 0).val / 7168, ht⟩ (1 : Fin 2) * 3 ≤ (i 1).val
      ∧ (i 1).val < win0_7.index ⟨(i 0).val / 7168, ht⟩ (1 : Fin 2) * 3 + win0_7.xsize (grid0.coords ⟨(i 0).val / 7168, ht⟩) (1 : Fin 2)
    rw [i71, x71]; omega

/-- The result array after the run is the function of the nine argument arrays. -/
theorem final7 (c : Dev nD) : (dats m (out7 m) 0 c).arrAt 7 cfg0.N = Garr m c :=
  (dats m (out7 m) 0 c).arrAt_eq_of_cover 7 (Garr m c) (fun t _ => flushed7 m c t) cover7

/-- An entry of a result block, read through the block, is the function at the array row 7168 t + p. -/
theorem out7_cut (c : Dev nD) (t : Fin cfg0.N) (y : (win0_7.xblock (grid0.coords t)).Idx)
    (P : Fin 100000) (hP : P.val = t.val * 7168 + (y 0).val) (j : Fin 3) (hj : j.val = (y 1).val) :
    win0_7.cut (grid0.coords t) (out7 m c t) y = Garr m c (ix2 P j) := by
  obtain ⟨-, -, -, -, -, -, i70, i71, -⟩ := idx_facts t
  show out7 m c t (win0_7.xinj (grid0.coords t) y) = _
  unfold out7
  rw [Window.fill_xinj]
  show Garr m c (((cfg0.win 7).blk t).view.emb y) = _
  refine congrArg _ (funext fun a => Fin.ext ?_)
  match a with
  | ⟨0, _⟩ => show win0_7.index t (0 : Fin 2) * 7168 + 1 * (y 0).val = P.val; rw [i70, hP]; omega
  | ⟨1, _⟩ => show win0_7.index t (1 : Fin 2) * 3 + 1 * (y 1).val = j.val; rw [i71, hj]; omega

end Cert.KernelIdeal.Arrays

end
-- ==== Proof.HostIdeal.lean ====
/-
  What the four small operands hold when the region is entered, entry by entry.

  The packed first-layer weights are the four 256 x 128 halves side by side: columns 0..127 the upper half of the
  first branch's matrix, 128..255 the upper half of the second branch's, 256..383 the lower half of the first's,
  384..511 the lower half of the second's. The packed bias row is the first branch's bias followed by the second's.
  The second-layer weights and bias are the arguments themselves (a change of float format and a reshape to one row,
  both the identity on values at the exact reading).
-/
import proofs.«148667_g32006096290012_cont_8to1_b_1154_28_alg».proof.Proof.EntryIdeal
import proofs.«148667_g32006096290012_cont_8to1_b_1154_28_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Host

open Cert.KernelIdeal Cert.KernelIdeal.Gen Cert.KernelIdeal.Entry Cert.TwoBranch
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-! ## The operands as terms of the arguments -/

/-- The four halves, in the order they are laid side by side. -/
abbrev halves (c : Dev nD) : List ((s : Shape) × (s.Idx → EReal)) :=
  [⟨S256x128, extractStridedSlice S256x128 ![0, 0] (m ((c : Thread nD τ).loc main_arg3)) slices_S512x128_S256x128_0_0⟩,
   ⟨S256x128, extractStridedSlice S256x128 ![0, 0] (m ((c : Thread nD τ).loc main_arg5)) slices_S512x128_S256x128_0_0⟩,
   ⟨S256x128, extractStridedSlice S256x128 ![256, 0] (m ((c : Thread nD τ).loc main_arg3)) slices_S512x128_S256x128_256_0⟩,
   ⟨S256x128, extractStridedSlice S256x128 ![256, 0] (m ((c : Thread nD τ).loc main_arg5)) slices_S512x128_S256x128_256_0⟩]

/-- The packed weights: the four slices laid side by side. -/
theorem V_v5 (c : Dev nD) : (V m c main_v5 : S256x512.Idx → EReal)
    = truncf (F := Ideal) .bf16 (concatenate S256x512 1 (halves m c)
        concatenates_S256x128_S256x128_S256x128_S256x128_S256x512_d1) bitsLt_bf16_f32 := by
  dsimp only [V, hostOps0]; after_results <;> rfl

/-- The packed bias row: the two bias vectors joined, as one row. -/
theorem V_v7 (c : Dev nD) : (V m c main_v7 : S1x256.Idx → EReal)
    = shapeCast S1x256 (concatenate S256 0 [⟨S128, m ((c : Thread nD τ).loc main_arg4)⟩, ⟨S128, m ((c : Thread nD τ).loc main_arg6)⟩]
        concatenates_S128_S128_S256_d0) shapeCasts_S256_S1x256 := by
  dsimp only [V, hostOps0]; after_results <;> rfl

/-- The second-layer weights. -/
theorem V_v8 (c : Dev nD) : (V m c main_v8 : S256x3.Idx → EReal)
    = truncf (F := Ideal) .bf16 (m ((c : Thread nD τ).loc main_arg7)) bitsLt_bf16_f32 := by
  dsimp only [V, hostOps0]; after_results <;> rfl

/-- The second-layer bias, as one row. -/
theorem V_v9 (c : Dev nD) : (V m c main_v9 : S1x3.Idx → EReal)
    = shapeCast S1x3 (m ((c : Thread nD τ).loc main_arg8)) shapeCasts_S3_S1x3 := by
  dsimp only [V, hostOps0]; after_results <;> rfl

/-! ## The packed weights at an entry -/

/-- Columns 0..127: the first branch's matrix, upper half. -/
theorem v5_own1 (c : Dev nD) (e : Fin 256) (k : Fin 128) (q : Fin 512) (hq : q.val = k.val) :
    V m c main_v5 (ix2 e q) = m ((c : Thread nD τ).loc main_arg3) (ix2 (lo256 e) k) := by
  refine (congrFun (V_v5 m c) (ix2 e q)).trans ?_
  show concatenate S256x512 1 (halves m c) concatenates_S256x128_S256x128_S256x128_S256x128_S256x512_d1 (ix2 e q) = _
  refine (concatenate_apply_piece (t := S256x512) (1 : Fin 2) (halves m c) concatenates_S256x128_S256x128_S256x128_S256x128_S256x512_d1 (ix2 e q) 0 (by show 0 < 4; decide) S256x128 _ rfl rfl 0 rfl (ix2 e k)
    (fun b hb => ?_) ?_).trans ?_
  · match b with
    | ⟨0, _⟩ => rfl
    | ⟨1, _⟩ => exact absurd rfl hb
  · show 0 + k.val = q.val
    omega
  · refine extractStridedSlice_apply ![0, 0] _ slices_S512x128_S256x128_0_0 (ix2 e k) (ix2 (lo256 e) k) fun a => ?_
    match a with
    | ⟨0, _⟩ => show (lo256 e).val = 0 + e.val; first | rfl | (simp only [lo256_val]; omega)
    | ⟨1, _⟩ => show k.val = 0 + k.val; omega

/-- Columns 128..255: the second branch's matrix, upper half. -/
theorem v5_own2 (c : Dev nD) (e : Fin 256) (k : Fin 128) (q : Fin 512) (hq : q.val = 128 + k.val) :
    V m c main_v5 (ix2 e q) = m ((c : Thread nD τ).loc main_arg5) (ix2 (lo256 e) k) := by
  refine (congrFun (V_v5 m c) (ix2 e q)).trans ?_
  show concatenate S256x512 1 (halves m c) concatenates_S256x128_S256x128_S256x128_S256x128_S256x512_d1 (ix2 e q) = _
  refine (concatenate_apply_piece (t := S256x512) (1 : Fin 2) (halves m c) concatenates_S256x128_S256x128_S256x128_S256x128_S256x512_d1 (ix2 e q) 1 (by show 1 < 4; decide) S256x128 _ rfl rfl 128 rfl (ix2 e k)
    (fun b hb => ?_) ?_).trans ?_
  · match b with
    | ⟨0, _⟩ => rfl
    | ⟨1, _⟩ => exact absurd rfl hb
  · show 128 + k.val = q.val
    omega
  · refine extractStridedSlice_apply ![0, 0] _ slices_S512x128_S256x128_0_0 (ix2 e k) (ix2 (lo256 e) k) fun a => ?_
    match a with
    | ⟨0, _⟩ => show (lo256 e).val = 0 + e.val; first | rfl | (simp only [lo256_val]; omega)
    | ⟨1, _⟩ => show k.val = 0 + k.val; omega

/-- Columns 256..383: the first branch's matrix, lower half. -/
theorem v5_sh1 (c : Dev nD) (e : Fin 256) (k : Fin 128) (q : Fin 512) (hq : q.val = 256 + k.val) :
    V m c main_v5 (ix2 e q) = m ((c : Thread nD τ).loc main_arg3) (ix2 (hi256 e) k) := by
  refine (congrFun (V_v5 m c) (ix2 e q)).trans ?_
  show concatenate S256x512 1 (halves m c) concatenates_S256x128_S256x128_S256x128_S256x128_S256x512_d1 (ix2 e q) = _
  refine (concatenate_apply_piece (t := S256x512) (1 : Fin 2) (halves m c) concatenates_S256x128_S256x128_S256x128_S256x128_S256x512_d1 (ix2 e q) 2 (by show 2 < 4; decide) S256x128 _ rfl rfl 256 rfl (ix2 e k)
    (fun b hb => ?_) ?_).trans ?_
  · match b with
    | ⟨0, _⟩ => rfl
    | ⟨1, _⟩ => exact absurd rfl hb
  · show 256 + k.val = q.val
    omega
  · refine extractStridedSlice_apply ![256, 0] _ slices_S512x128_S256x128_256_0 (ix2 e k) (ix2 (hi256 e) k) fun a => ?_
    match a with
    | ⟨0, _⟩ => show (hi256 e).val = 256 + e.val; first | rfl | (simp only [lo256_val]; omega)
    | ⟨1, _⟩ => show k.val = 0 + k.val; omega

/-- Columns 384..511: the second branch's matrix, lower half. -/
theorem v5_sh2 (c : Dev nD) (e : Fin 256) (k : Fin 128) (q : Fin 512) (hq : q.val = 384 + k.val) :
    V m c main_v5 (ix2 e q) = m ((c : Thread nD τ).loc main_arg5) (ix2 (hi256 e) k) := by
  refine (congrFun (V_v5 m c) (ix2 e q)).trans ?_
  show concatenate S256x512 1 (halves m c) concatenates_S256x128_S256x128_S256x128_S256x128_S256x512_d1 (ix2 e q) = _
  refine (concatenate_apply_piece (t := S256x512) (1 : Fin 2) (halves m c) concatenates_S256x128_S256x128_S256x128_S256x128_S256x512_d1 (ix2 e q) 3 (by show 3 < 4; decide) S256x128 _ rfl rfl 384 rfl (ix2 e k)
    (fun b hb => ?_) ?_).trans ?_
  · match b with
    | ⟨0, _⟩ => rfl
    | ⟨1, _⟩ => exact absurd rfl hb
  · show 384 + k.val = q.val
    omega
  · refine extractStridedSlice_apply ![256, 0] _ slices_S512x128_S256x128_256_0 (ix2 e k) (ix2 (hi256 e) k) fun a => ?_
    match a with
    | ⟨0, _⟩ => show (hi256 e).val = 256 + e.val; first | rfl | (simp only [lo256_val]; omega)
    | ⟨1, _⟩ => show k.val = 0 + k.val; omega

/-! ## The packed bias row, the second-layer weights and bias at an entry -/

/-- Columns 0..127 of the bias row: the first branch's bias. -/
theorem v7_lo (c : Dev nD) (k : Fin 128) (q : Fin 256) (hq : q.val = k.val) :
    V m c main_v7 (ix2 (0 : Fin 1) q) = m ((c : Thread nD τ).loc main_arg4) (ix1 k) := by
  refine (congrFun (V_v7 m c) (ix2 (0 : Fin 1) q)).trans ?_
  refine (shapeCast_apply _ shapeCasts_S256_S1x256 (ix2 (0 : Fin 1) q) (ix1 q) ?_).trans ?_
  · rw [Shape.rowMajor_val_one, Shape.rowMajor_val_two]
    show q.val = 0 * 256 + q.val
    omega
  · refine concatenate_pair_apply_left (t := S256) (s₁ := S128) (s₂ := S128) (0 : Fin 1) _ _ concatenates_S128_S128_S256_d0 (ix1 q) rfl (ix1 k) fun b => ?_
    match b with
    | ⟨0, _⟩ => show k.val = q.val; omega

/-- Columns 128..255 of the bias row: the second branch's bias. -/
theorem v7_hi (c : Dev nD) (k : Fin 128) (q : Fin 256) (hq : q.val = 128 + k.val) :
    V m c main_v7 (ix2 (0 : Fin 1) q) = m ((c : Thread nD τ).loc main_arg6) (ix1 k) := by
  refine (congrFun (V_v7 m c) (ix2 (0 : Fin 1) q)).trans ?_
  refine (shapeCast_apply _ shapeCasts_S256_S1x256 (ix2 (0 : Fin 1) q) (ix1 q) ?_).trans ?_
  · rw [Shape.rowMajor_val_one, Shape.rowMajor_val_two]
    show q.val = 0 * 256 + q.val
    omega
  · refine concatenate_pair_apply_right (t := S256) (s₁ := S128) (s₂ := S128) (0 : Fin 1) _ _ concatenates_S128_S128_S256_d0 (ix1 q) rfl rfl (ix1 k)
      (fun b hb => ?_) ?_
    · match b with
      | ⟨0, _⟩ => exact absurd rfl hb
    · show k.val + 128 = q.val
      omega

/-- The second-layer weights are the argument's. -/
theorem v8_apply (c : Dev nD) (q : Fin 256) (j : Fin 3) :
    V m c main_v8 (ix2 q j) = m ((c : Thread nD τ).loc main_arg7) (ix2 q j) :=
  congrFun (V_v8 m c) (ix2 q j)

/-- The second-layer bias row is the argument's vector. -/
theorem v9_apply (c : Dev nD) (j : Fin 3) :
    V m c main_v9 (ix2 (0 : Fin 1) j) = m ((c : Thread nD τ).loc main_arg8) (ix1 j) := by
  refine (congrFun (V_v9 m c) (ix2 (0 : Fin 1) j)).trans ?_
  refine shapeCast_apply _ shapeCasts_S3_S1x3 (ix2 (0 : Fin 1) j) (ix1 j) ?_
  rw [Shape.rowMajor_val_one, Shape.rowMajor_val_two]
  show j.val = 0 * 3 + j.val
  omega

end Cert.KernelIdeal.Host

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.StoredEntry.lean ====
/-
  The stored value of the fused two-branch kernel, read at one entry, on the extended reals.

  At one grid point the body holds three slabs of 7168 rows (x0 the first branch's input, x1 the shared input, x2 the
  second branch's input), the packed first-layer weights x3 (256 rows, 512 columns: columns 0..127 the first branch's
  own part, 128..255 the second branch's own part, 256..383 the shared input's part for the first branch, 384..511 the
  shared input's part for the second branch), the packed bias row x4 (columns 0..127 first branch, 128..255 second),
  the second-layer weights x5 (rows 0..127 for the first hidden slab, 128..255 for the second) and the second-layer
  bias row x6. With

      h1[p, k] = max( ( Σ_{e<256} x0[p, e] · x3[e, k]        +  Σ_{e<256} x1[p, e] · x3[e, 256 + k] ) + x4[0, k] , 0 )
      h2[p, k] = max( ( Σ_{e<256} x2[p, e] · x3[e, 128 + k]  +  Σ_{e<256} x1[p, e] · x3[e, 384 + k] ) + x4[0, 128 + k] , 0 )

  the stored entry is

      out[p, j] = ( Σ_{k<128} h1[p, k] · x5[k, j]  +  Σ_{k<128} h2[p, k] · x5[128 + k, j] ) + x6[0, j].

  The proof reads each operation of the stored value at an index: a load through a rectangle is the contents at the
  shifted coordinates; a product into a zero accumulator is the textbook sum over the contraction index; a cast to the
  same shape is the identity; a column slice shifts the column; a row broadcast reads the one row; sums, maxima and
  changes of float format are pointwise, the last being the identity on the extended reals. The shared slab's product
  against all 256 of its weight columns is computed once and its two halves are added to the two branches. The zero of
  the rectifier is kept as the float word it is written with; nothing here evaluates it.
-/
import proofs.«148667_g32006096290012_cont_8to1_b_1154_28_alg».proof.Proof.BodyIdeal
import proofs.«148667_g32006096290012_cont_8to1_b_1154_28_alg».proof.Proof.Spec
import proofs.«148667_g32006096290012_cont_8to1_b_1154_28_alg».proof.Proof.LibPlainContract
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.StoredEntry

open Cert.KernelIdeal Cert.KernelIdeal.Gen Cert.KernelIdeal.Body Cert.TwoBranch
open Idealize.ShloMosaic Idealize.ShloMosaic.ValueIdx

/-- the four column ranges of the packed weights, position k of each -/
def col0   (k : Fin 128) : Fin 512 := ⟨k.val, by omega⟩
def col128 (k : Fin 128) : Fin 512 := ⟨128 + k.val, by omega⟩
def col256 (k : Fin 128) : Fin 512 := ⟨256 + k.val, by omega⟩
def col384 (k : Fin 128) : Fin 512 := ⟨384 + k.val, by omega⟩

/-- hidden unit k of one branch at row p of the slabs: the branch's own slab x against columns 'own' of the packed
    weights, the shared slab xc against columns 'sh', the bias at column 'bcol' of the packed bias row, rectified at
    the float zero word -/
def hid (x xc : Vec Ideal S7168x256 .f32) (x3 : Vec Ideal S256x512 .bf16) (x4 : Vec Ideal S1x256 .f32)
    (own sh : Fin 128 → Fin 512) (bcol : Fin 128 → Fin 256) (p : Fin 7168) (k : Fin 128) : EReal :=
  max (((∑ e : Fin 256, x (ix2 p e) * x3 (ix2 e (own k))) + ∑ e : Fin 256, xc (ix2 p e) * x3 (ix2 e (sh k)))
      + x4 (ix2 (0 : Fin 1) (bcol k))) (Ideal.ofBits .f32 0x00000000#32)

/-! ## The loads: what each rectangle reads, by coordinates -/

/-- A whole slab read through the whole-slab rectangle is the slab. -/
theorem ld_rIn (x : Vec Ideal S7168x256 .f32) : View.ld x rIn = x :=
  View.ld_unit_zero (S := S7168x256) (funext fun a => by fin_cases a <;> rfl) _ x

/-- The second-layer bias row read whole is the row. -/
theorem ld_rBd (x6 : Vec Ideal S1x3 .f32) : View.ld x6 rBd = x6 :=
  View.ld_unit_zero (S := S1x3) (funext fun a => by fin_cases a <;> rfl) _ x6

/-- Columns 0..127 of the packed weights: entry (e, k) is the packed entry (e, k). -/
theorem ld_rWn (x3 : Vec Ideal S256x512 .bf16) (e : Fin 256) (k : Fin 128) :
    View.ld x3 rWn (ix2 e k) = x3 (ix2 e (col0 k)) := by
  show x3 (rWn.idx (ix2 e k)) = _
  refine congrArg x3 (funext fun a => Fin.ext ?_)
  match a with
  | ⟨0, _⟩ => show 0 + 1 * e.val = e.val; omega
  | ⟨1, _⟩ => show 0 + 1 * k.val = k.val; omega

/-- Columns 128..255: entry (e, k) is the packed entry (e, 128 + k). -/
theorem ld_rWr (x3 : Vec Ideal S256x512 .bf16) (e : Fin 256) (k : Fin 128) :
    View.ld x3 rWr (ix2 e k) = x3 (ix2 e (col128 k)) := by
  show x3 (rWr.idx (ix2 e k)) = _
  refine congrArg x3 (funext fun a => Fin.ext ?_)
  match a with
  | ⟨0, _⟩ => show 0 + 1 * e.val = e.val; omega
  | ⟨1, _⟩ => show 128 + 1 * k.val = 128 + k.val; omega

/-- Columns 256..511, lower half: entry (e, k) is the packed entry (e, 256 + k). -/
theorem ld_rWc_lo (x3 : Vec Ideal S256x512 .bf16) (e : Fin 256) (k : Fin 128) :
    View.ld x3 rWc (ix2 e (lo128 k)) = x3 (ix2 e (col256 k)) := by
  show x3 (rWc.idx (ix2 e (lo128 k))) = _
  refine congrArg x3 (funext fun a => Fin.ext ?_)
  match a with
  | ⟨0, _⟩ => show 0 + 1 * e.val = e.val; omega
  | ⟨1, _⟩ => show 256 + 1 * k.val = 256 + k.val; omega

/-- Columns 256..511, upper half: entry (e, 128 + k) is the packed entry (e, 384 + k). -/
theorem ld_rWc_hi (x3 : Vec Ideal S256x512 .bf16) (e : Fin 256) (k : Fin 128) :
    View.ld x3 rWc (ix2 e (hi128 k)) = x3 (ix2 e (col384 k)) := by
  show x3 (rWc.idx (ix2 e (hi128 k))) = _
  refine congrArg x3 (funext fun a => Fin.ext ?_)
  match a with
  | ⟨0, _⟩ => show 0 + 1 * e.val = e.val; omega
  | ⟨1, _⟩ => show 256 + 1 * (128 + k.val) = 384 + k.val; omega

/-- The lower half of the packed bias row. -/
theorem ld_rBn (x4 : Vec Ideal S1x256 .f32) (k : Fin 128) :
    View.ld x4 rBn (ix2 (0 : Fin 1) k) = x4 (ix2 (0 : Fin 1) (lo128 k)) := by
  show x4 (rBn.idx (ix2 (0 : Fin 1) k)) = _
  refine congrArg x4 (funext fun a => Fin.ext ?_)
  match a with
  | ⟨0, _⟩ => rfl
  | ⟨1, _⟩ => show 0 + 1 * k.val = k.val; omega

/-- The upper half of the packed bias row. -/
theorem ld_rBr (x4 : Vec Ideal S1x256 .f32) (k : Fin 128) :
    View.ld x4 rBr (ix2 (0 : Fin 1) k) = x4 (ix2 (0 : Fin 1) (hi128 k)) := by
  show x4 (rBr.idx (ix2 (0 : Fin 1) k)) = _
  refine congrArg x4 (funext fun a => Fin.ext ?_)
  match a with
  | ⟨0, _⟩ => rfl
  | ⟨1, _⟩ => show 128 + 1 * k.val = 128 + k.val; omega

/-- Rows 0..127 of the second-layer weights. -/
theorem ld_rDn (x5 : Vec Ideal S256x3 .bf16) (k : Fin 128) (j : Fin 3) :
    View.ld x5 rDn (ix2 k j) = x5 (ix2 (lo128 k) j) := by
  show x5 (rDn.idx (ix2 k j)) = _
  refine congrArg x5 (funext fun a => Fin.ext ?_)
  match a with
  | ⟨0, _⟩ => show 0 + 1 * k.val = k.val; omega
  | ⟨1, _⟩ => show 0 + 1 * j.val = j.val; omega

/-- Rows 128..255 of the second-layer weights. -/
theorem ld_rDr (x5 : Vec Ideal S256x3 .bf16) (k : Fin 128) (j : Fin 3) :
    View.ld x5 rDr (ix2 k j) = x5 (ix2 (hi128 k) j) := by
  show x5 (rDr.idx (ix2 k j)) = _
  refine congrArg x5 (funext fun a => Fin.ext ?_)
  match a with
  | ⟨0, _⟩ => show 128 + 1 * k.val = 128 + k.val; omega
  | ⟨1, _⟩ => show 0 + 1 * j.val = j.val; omega

/-! ## The three matrix products into a zero accumulator, at an entry -/

/-- A 7168 x 256 slab against a 256 x 256 weight block. -/
theorem mm_shared (l : FVec Ideal S7168x256 .f32) (r : FVec Ideal S256x256 .bf16) (p : Fin 7168) (q : Fin 256) :
    matmul dot_S7168x256_S256x256_S7168x256_1_0_0_1_n_n none l (shapeCast S256x256 r shapeCasts_S256x256_S256x256)
        (constant S7168x256 .f32 0x00000000#32) (ix2 p q)
      = ∑ e : Fin 256, l (ix2 p e) * r (ix2 e q) :=
  (congrArg (fun w => matmul dot_S7168x256_S256x256_S7168x256_1_0_0_1_n_n none l w
      (constant S7168x256 .f32 0x00000000#32) (ix2 p q)) (shapeCast_self r shapeCasts_S256x256_S256x256)).trans
    (Cert.LibPlainContract.matmul_plain_apply 7168 256 256 (φ₁ := .f32) (φ₂ := .bf16) none l r p q)

/-- A 7168 x 256 slab against a 256 x 128 weight block. -/
theorem mm_own (l : FVec Ideal S7168x256 .f32) (r : FVec Ideal S256x128 .bf16) (p : Fin 7168) (k : Fin 128) :
    matmul dot_S7168x256_S256x128_S7168x128_1_0_0_1_n_n none l (shapeCast S256x128 r shapeCasts_S256x128_S256x128)
        (constant S7168x128 .f32 0x00000000#32) (ix2 p k)
      = ∑ e : Fin 256, l (ix2 p e) * r (ix2 e k) :=
  (congrArg (fun w => matmul dot_S7168x256_S256x128_S7168x128_1_0_0_1_n_n none l w
      (constant S7168x128 .f32 0x00000000#32) (ix2 p k)) (shapeCast_self r shapeCasts_S256x128_S256x128)).trans
    (Cert.LibPlainContract.matmul_plain_apply 7168 256 128 (φ₁ := .f32) (φ₂ := .bf16) none l r p k)

/-- A 7168 x 128 hidden slab against a 128 x 3 weight block. -/
theorem mm_out (l : FVec Ideal S7168x128 .bf16) (r : FVec Ideal S128x3 .bf16) (p : Fin 7168) (j : Fin 3) :
    matmul dot_S7168x128_S128x3_S7168x3_1_0_0_1_n_n none l (shapeCast S128x3 r shapeCasts_S128x3_S128x3)
        (constant S7168x3 .f32 0x00000000#32) (ix2 p j)
      = ∑ k : Fin 128, l (ix2 p k) * r (ix2 k j) :=
  (congrArg (fun w => matmul dot_S7168x128_S128x3_S7168x3_1_0_0_1_n_n none l w
      (constant S7168x3 .f32 0x00000000#32) (ix2 p j)) (shapeCast_self r shapeCasts_S128x3_S128x3)).trans
    (Cert.LibPlainContract.matmul_plain_apply 7168 128 3 (φ₁ := .bf16) (φ₂ := .bf16) none l r p j)

/-! ## The shared product -/

/-- The shared slab's product against its 256 weight columns, at entry (p, q). -/
theorem pay2_apply (v0 : FVec Ideal S7168x256 .f32) (v1 : FVec Ideal S256x256 .bf16) (p : Fin 7168) (q : Fin 256) :
    (k0_pay2 (F := Ideal) v0 v1 (ix2 p q) : EReal) = ∑ e : Fin 256, v0 (ix2 p e) * v1 (ix2 e q) := by
  unfold k0_pay2
  exact mm_shared v0 v1 p q

/-! ## A hidden slab -/

/-- A rectified hidden slab at entry (p, k): the branch's own product, plus column c = o + k of the shared product,
    plus the bias row, against the float zero word. The change of float format after it is the identity on the
    extended reals. -/
theorem hidden_apply (x : FVec Ideal S7168x256 .f32) (w : FVec Ideal S256x128 .bf16) (bc : FVec Ideal S7168x256 .f32)
    (o : Nat) (hs : S7168x256.Slices ![0, o] S7168x128) (b : FVec Ideal S1x128 .f32)
    (p : Fin 7168) (k : Fin 128) (c : Fin 256) (hc : c.val = o + k.val) :
    (truncf (F := Ideal) .bf16
        (maximumf
          (addf
            (addf
              (matmul dot_S7168x256_S256x128_S7168x128_1_0_0_1_n_n none x
                (shapeCast S256x128 w shapeCasts_S256x128_S256x128) (constant S7168x128 .f32 0x00000000#32))
              (extractStridedSlice S7168x128 ![0, o] bc hs))
            (broadcastTo S7168x128 (shapeCast S1x128 b shapeCasts_S1x128_S1x128) broadcasts_S1x128_S7168x128))
          (broadcast S7168x128 (Scalar.ofBits (F := Ideal) .f32 0x00000000#32)))
        bitsLt_bf16_f32 (ix2 p k) : EReal)
      = max (((∑ e : Fin 256, x (ix2 p e) * w (ix2 e k)) + bc (ix2 p c)) + b (ix2 (0 : Fin 1) k))
          (Ideal.ofBits .f32 0x00000000#32) := by
  refine (truncf_apply (ψ := .bf16) (φ := .f32) _ bitsLt_bf16_f32 (ix2 p k)).trans ?_
  refine (maximumf_apply (φ := .f32) _ _ (ix2 p k)).trans ?_
  refine congrArg₂ max ?_ rfl
  refine (addf_apply _ _ _).trans ?_
  refine congrArg₂ (· + ·) ?_ ?_
  · refine (addf_apply _ _ _).trans ?_
    refine congrArg₂ (· + ·) (mm_own x w p k) ?_
    exact slice2_axis1_apply o bc hs p k c hc
  · refine (broadcastTo_1b_ab_apply _ _ p k).trans ?_
    exact congrFun (shapeCast_self b shapeCasts_S1x128_S1x128) _

/-- The second branch's hidden slab at entry (p, k). -/
theorem pay4_apply (v0 : FVec Ideal S7168x256 .f32) (v1 : FVec Ideal S256x256 .bf16) (v16 : FVec Ideal S7168x256 .f32)
    (v17 : FVec Ideal S256x128 .bf16) (v22 : FVec Ideal S1x128 .f32) (p : Fin 7168) (k : Fin 128) :
    (k0_pay4 (F := Ideal) v0 v1 v16 v17 v22 (ix2 p k) : EReal)
      = max (((∑ e : Fin 256, v16 (ix2 p e) * v17 (ix2 e k)) + ∑ e : Fin 256, v0 (ix2 p e) * v1 (ix2 e (hi128 k)))
            + v22 (ix2 (0 : Fin 1) k)) (Ideal.ofBits .f32 0x00000000#32) := by
  unfold k0_pay4
  refine (hidden_apply v16 v17 (k0_pay2 v0 v1) 128 slices_S7168x256_o0_128_S7168x128 v22 p k (hi128 k) rfl).trans ?_
  exact congrArg (fun t => max (((∑ e : Fin 256, v16 (ix2 p e) * v17 (ix2 e k)) + t) + v22 (ix2 (0 : Fin 1) k))
    (Ideal.ofBits .f32 0x00000000#32)) (pay2_apply v0 v1 p (hi128 k))

/-- The first branch's hidden slab against rows 0..127 of the second-layer weights, at entry (p, j). -/
theorem pay3_apply (v0 : FVec Ideal S7168x256 .f32) (v1 : FVec Ideal S256x256 .bf16) (v4 : FVec Ideal S7168x256 .f32)
    (v5 : FVec Ideal S256x128 .bf16) (v10 : FVec Ideal S1x128 .f32) (v29 : FVec Ideal S128x3 .bf16)
    (p : Fin 7168) (j : Fin 3) :
    (k0_pay3 (F := Ideal) v0 v1 v4 v5 v10 v29 (ix2 p j) : EReal)
      = ∑ k : Fin 128,
          max (((∑ e : Fin 256, v4 (ix2 p e) * v5 (ix2 e k)) + ∑ e : Fin 256, v0 (ix2 p e) * v1 (ix2 e (lo128 k)))
              + v10 (ix2 (0 : Fin 1) k)) (Ideal.ofBits .f32 0x00000000#32) * v29 (ix2 k j) := by
  unfold k0_pay3
  refine (mm_out _ v29 p j).trans (Finset.sum_congr rfl fun k _ => ?_)
  refine congrArg (· * v29 (ix2 k j)) ?_
  refine (hidden_apply v4 v5 (k0_pay2 v0 v1) 0 slices_S7168x256_o0_0_S7168x128 v10 p k (lo128 k)
    (Nat.zero_add _).symm).trans ?_
  exact congrArg (fun t => max (((∑ e : Fin 256, v4 (ix2 p e) * v5 (ix2 e k)) + t) + v10 (ix2 (0 : Fin 1) k))
    (Ideal.ofBits .f32 0x00000000#32)) (pay2_apply v0 v1 p (lo128 k))

/-- The stored value from the two second-layer products and the second-layer bias row, at entry (p, j). -/
theorem pay1_apply (v31 : FVec Ideal S7168x3 .f32) (v32 : FVec Ideal S7168x128 .bf16) (v33 : FVec Ideal S128x3 .bf16)
    (v37 : FVec Ideal S1x3 .f32) (p : Fin 7168) (j : Fin 3) :
    (k0_pay1 (F := Ideal) v31 v32 v33 v37 (ix2 p j) : EReal)
      = (v31 (ix2 p j) + ∑ k : Fin 128, v32 (ix2 p k) * v33 (ix2 k j)) + v37 (ix2 (0 : Fin 1) j) := by
  unfold k0_pay1
  refine (addf_apply _ _ _).trans ?_
  refine congrArg₂ (· + ·) ?_ ?_
  · refine (addf_apply _ _ _).trans ?_
    exact congrArg (v31 (ix2 p j) + ·) (mm_out v32 v33 p j)
  · refine (broadcastTo_1b_ab_apply _ _ p j).trans ?_
    exact congrFun (shapeCast_self v37 shapeCasts_S1x3_S1x3) _

/-! ## The stored value -/

/-- the stored value at entry (p, j) -/
theorem stored_apply (x0 x1 x2 : Vec Ideal S7168x256 .f32) (x3 : Vec Ideal S256x512 .bf16)
    (x4 : Vec Ideal S1x256 .f32) (x5 : Vec Ideal S256x3 .bf16) (x6 : Vec Ideal S1x3 .f32)
    (p : Fin 7168) (j : Fin 3) :
    stored x0 x1 x2 x3 x4 x5 x6 (ix2 p j)
      = ((∑ k : Fin 128, hid x0 x1 x3 x4 col0 col256 lo128 p k * x5 (ix2 (lo128 k) j))
          + ∑ k : Fin 128, hid x2 x1 x3 x4 col128 col384 hi128 p k * x5 (ix2 (hi128 k) j))
        + x6 (ix2 (0 : Fin 1) j) := by
  unfold stored
  rw [ld_rIn x0, ld_rIn x1, ld_rIn x2, ld_rBd x6]
  refine (pay1_apply _ _ _ _ p j).trans ?_
  refine congrArg (· + x6 (ix2 (0 : Fin 1) j)) ?_
  refine congrArg₂ (· + ·) ?_ ?_
  · -- the first branch
    refine (pay3_apply x1 (View.ld x3 rWc) x0 (View.ld x3 rWn) (View.ld x4 rBn) (View.ld x5 rDn) p j).trans ?_
    refine Finset.sum_congr rfl fun k _ => ?_
    refine congrArg₂ (· * ·) ?_ (ld_rDn x5 k j)
    unfold hid
    refine congrArg₂ max ?_ rfl
    refine congrArg₂ (· + ·) (congrArg₂ (· + ·) ?_ ?_) (ld_rBn x4 k)
    · exact Finset.sum_congr rfl fun e _ => congrArg (x0 (ix2 p e) * ·) (ld_rWn x3 e k)
    · exact Finset.sum_congr rfl fun e _ => congrArg (x1 (ix2 p e) * ·) (ld_rWc_lo x3 e k)
  · -- the second branch
    refine Finset.sum_congr rfl fun k _ => ?_
    refine congrArg₂ (· * ·) ?_ (ld_rDr x5 k j)
    refine (pay4_apply x1 (View.ld x3 rWc) x2 (View.ld x3 rWr) (View.ld x4 rBr) p k).trans ?_
    unfold hid
    refine congrArg₂ max ?_ rfl
    refine congrArg₂ (· + ·) (congrArg₂ (· + ·) ?_ ?_) (ld_rBr x4 k)
    · exact Finset.sum_congr rfl fun e _ => congrArg (x2 (ix2 p e) * ·) (ld_rWr x3 e k)
    · exact Finset.sum_congr rfl fun e _ => congrArg (x1 (ix2 p e) * ·) (ld_rWc_hi x3 e k)

end Cert.KernelIdeal.StoredEntry

end
-- ==== Proof.KernelValue.lean ====
/-
  The kernel's result array is the specification of the nine argument arrays.

  At grid point t the output buffer's row p, for p among the rows written back, is computed from row p of the three
  input slabs' buffers, which hold rows 7168 t + p of the input arrays, and from the four small operands, which hold the
  packed weights and biases. Reading the packed operands entry by entry turns each hidden unit computed from the
  buffers into the specification's hidden unit of those array rows, and the stored entry into the specification's
  entry (7168 t + p, j). In particular the rows written back do not depend on what the slabs' buffers hold past the
  arrays' end, so the result window's blocks are blocks of the specification, and the result array ends holding it.
-/
import proofs.«148667_g32006096290012_cont_8to1_b_1154_28_alg».proof.Proof.BodyIdeal
import proofs.«148667_g32006096290012_cont_8to1_b_1154_28_alg».proof.Proof.ArraysIdeal
import proofs.«148667_g32006096290012_cont_8to1_b_1154_28_alg».proof.Proof.HostIdeal
import proofs.«148667_g32006096290012_cont_8to1_b_1154_28_alg».proof.Proof.StoredEntry
import proofs.«148667_g32006096290012_cont_8to1_b_1154_28_alg».proof.Proof.Spec

set_option maxRecDepth 16384

noncomputable section

open scoped BigOperators

namespace Cert.KernelIdeal.KValue

open Cert.KernelIdeal Cert.KernelIdeal.Gen Cert.KernelIdeal.Entry Cert.KernelIdeal.Body Cert.KernelIdeal.Arrays
open Cert.KernelIdeal.Host Cert.KernelIdeal.StoredEntry Cert.TwoBranch
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## A hidden unit computed from the buffers -/

/-- First branch: own slab the first input's, columns 0..127 and 256..383 of the packed weights, bias columns 0..127. -/
theorem hid_first (c : Dev nD) (t : Fin cfg0.N) (d0 d1 : Vec Ideal S7168x256 .f32) (p : Fin 7168)
    (hp : p.val < win0_7.xsize (grid0.coords t) (0 : Fin 2)) (P : Fin 100000) (hP : P.val = t.val * 7168 + p.val)
    (k : Fin 128) :
    hid (win0_0.fill (grid0.coords t) d0 (iblk m c 0 t)) (win0_1.fill (grid0.coords t) d1 (iblk m c 1 t))
        (iblk m c 3 t) (iblk m c 4 t) col0 col256 lo128 p k
      = Cert.TwoBranch.hidden (rowOf (m ((c : Thread nD τ).loc main_arg0)) P) (rowOf (m ((c : Thread nD τ).loc main_arg1)) P) (m ((c : Thread nD τ).loc main_arg3)) (m ((c : Thread nD τ).loc main_arg4)) k := by
  have s1 : ∀ e : Fin 256, win0_0.fill (grid0.coords t) d0 (iblk m c 0 t) (ix2 p e) * iblk m c 3 t (ix2 e (col0 k))
      = rowOf (m ((c : Thread nD τ).loc main_arg0)) P e * (m ((c : Thread nD τ).loc main_arg3)) (ix2 (lo256 e) k) := fun e => by
    rw [slab0 m c t d0 p e hp P hP, whole3 m c t e (col0 k), v5_own1 m c e k (col0 k) rfl]; rfl
  have s2 : ∀ e : Fin 256, win0_1.fill (grid0.coords t) d1 (iblk m c 1 t) (ix2 p e) * iblk m c 3 t (ix2 e (col256 k))
      = rowOf (m ((c : Thread nD τ).loc main_arg1)) P e * (m ((c : Thread nD τ).loc main_arg3)) (ix2 (hi256 e) k) := fun e => by
    rw [slab1 m c t d1 p e hp P hP, whole3 m c t e (col256 k), v5_sh1 m c e k (col256 k) rfl]; rfl
  have s3 : iblk m c 4 t (ix2 (0 : Fin 1) (lo128 k)) = (m ((c : Thread nD τ).loc main_arg4)) (ix1 k) := by
    rw [whole4 m c t (0 : Fin 1) (lo128 k), v7_lo m c k (lo128 k) rfl]
  unfold hid Cert.TwoBranch.hidden
  rw [Finset.sum_congr rfl (fun e _ => s1 e), Finset.sum_congr rfl (fun e _ => s2 e), s3]

/-- Second branch: own slab the third input's, columns 128..255 and 384..511, bias columns 128..255. -/
theorem hid_second (c : Dev nD) (t : Fin cfg0.N) (d2 d1 : Vec Ideal S7168x256 .f32) (p : Fin 7168)
    (hp : p.val < win0_7.xsize (grid0.coords t) (0 : Fin 2)) (P : Fin 100000) (hP : P.val = t.val * 7168 + p.val)
    (k : Fin 128) :
    hid (win0_2.fill (grid0.coords t) d2 (iblk m c 2 t)) (win0_1.fill (grid0.coords t) d1 (iblk m c 1 t))
        (iblk m c 3 t) (iblk m c 4 t) col128 col384 hi128 p k
      = Cert.TwoBranch.hidden (rowOf (m ((c : Thread nD τ).loc main_arg2)) P) (rowOf (m ((c : Thread nD τ).loc main_arg1)) P) (m ((c : Thread nD τ).loc main_arg5)) (m ((c : Thread nD τ).loc main_arg6)) k := by
  have s1 : ∀ e : Fin 256, win0_2.fill (grid0.coords t) d2 (iblk m c 2 t) (ix2 p e) * iblk m c 3 t (ix2 e (col128 k))
      = rowOf (m ((c : Thread nD τ).loc main_arg2)) P e * (m ((c : Thread nD τ).loc main_arg5)) (ix2 (lo256 e) k) := fun e => by
    rw [slab2 m c t d2 p e hp P hP, whole3 m c t e (col128 k), v5_own2 m c e k (col128 k) rfl]; rfl
  have s2 : ∀ e : Fin 256, win0_1.fill (grid0.coords t) d1 (iblk m c 1 t) (ix2 p e) * iblk m c 3 t (ix2 e (col384 k))
      = rowOf (m ((c : Thread nD τ).loc main_arg1)) P e * (m ((c : Thread nD τ).loc main_arg5)) (ix2 (hi256 e) k) := fun e => by
    rw [slab1 m c t d1 p e hp P hP, whole3 m c t e (col384 k), v5_sh2 m c e k (col384 k) rfl]; rfl
  have s3 : iblk m c 4 t (ix2 (0 : Fin 1) (hi128 k)) = (m ((c : Thread nD τ).loc main_arg6)) (ix1 k) := by
    rw [whole4 m c t (0 : Fin 1) (hi128 k), v7_hi m c k (hi128 k) rfl]
  unfold hid Cert.TwoBranch.hidden
  rw [Finset.sum_congr rfl (fun e _ => s1 e), Finset.sum_congr rfl (fun e _ => s2 e), s3]

/-! ## The rows written back -/

/-- What the body leaves on the rows written back is that point's block of the specification, whatever the input
    slabs' buffers hold past the arrays' end. -/
theorem row_local : RowLocal m (out7 m) := by
  intro c t d0 d1 d2
  funext y
  obtain ⟨x70, -, -, -, -, -, -, x71⟩ := xsize_facts t
  have hy0 : (y 0).val < win0_7.xsize (grid0.coords t) (0 : Fin 2) := (y 0).isLt
  have hy1' : (y 1).val < win0_7.xsize (grid0.coords t) (1 : Fin 2) := (y 1).isLt
  have hy1 : (y 1).val < 3 := by rw [x71] at hy1'; exact hy1'
  have ht : t.val < 14 := by
    have h := t.isLt
    have e : cfg0.N = 14 := N_0
    omega
  have hrows : (y 0).val < 7168 ∧ t.val * 7168 + (y 0).val < 100000 := by
    rw [x70] at hy0; split at hy0 <;> omega
  rw [out7_cut m c t y ⟨t.val * 7168 + (y 0).val, hrows.2⟩ rfl ⟨(y 1).val, hy1⟩ rfl]
  show outBuf _ _ _ _ _ _ _ (win0_7.xinj (grid0.coords t) y) = _
  have hxy : win0_7.xinj (grid0.coords t) y = ix2 (⟨(y 0).val, hrows.1⟩ : Fin 7168) (⟨(y 1).val, hy1⟩ : Fin 3) :=
    funext fun a => Fin.ext (by match a with | ⟨0, _⟩ => rfl | ⟨1, _⟩ => rfl)
  rw [hxy, outBuf_eq, stored_apply]
  unfold Garr
  rw [G_ix2]
  unfold Gc outRow
  have e1 : ∀ k : Fin 128,
      hid (win0_0.fill (grid0.coords t) d0 (iblk m c 0 t)) (win0_1.fill (grid0.coords t) d1 (iblk m c 1 t))
          (iblk m c 3 t) (iblk m c 4 t) col0 col256 lo128 ⟨(y 0).val, hrows.1⟩ k
        * iblk m c 5 t (ix2 (lo128 k) (⟨(y 1).val, hy1⟩ : Fin 3))
      = Cert.TwoBranch.hidden (rowOf (m ((c : Thread nD τ).loc main_arg0)) ⟨t.val * 7168 + (y 0).val, hrows.2⟩) (rowOf (m ((c : Thread nD τ).loc main_arg1)) ⟨t.val * 7168 + (y 0).val, hrows.2⟩)
          (m ((c : Thread nD τ).loc main_arg3)) (m ((c : Thread nD τ).loc main_arg4)) k * (m ((c : Thread nD τ).loc main_arg7)) (ix2 (lo128 k) (⟨(y 1).val, hy1⟩ : Fin 3)) := fun k => by
    rw [hid_first m c t d0 d1 ⟨(y 0).val, hrows.1⟩ hy0 ⟨t.val * 7168 + (y 0).val, hrows.2⟩ rfl k,
      whole5 m c t (lo128 k) ⟨(y 1).val, hy1⟩, v8_apply m c (lo128 k) ⟨(y 1).val, hy1⟩]
  have e2 : ∀ k : Fin 128,
      hid (win0_2.fill (grid0.coords t) d2 (iblk m c 2 t)) (win0_1.fill (grid0.coords t) d1 (iblk m c 1 t))
          (iblk m c 3 t) (iblk m c 4 t) col128 col384 hi128 ⟨(y 0).val, hrows.1⟩ k
        * iblk m c 5 t (ix2 (hi128 k) (⟨(y 1).val, hy1⟩ : Fin 3))
      = Cert.TwoBranch.hidden (rowOf (m ((c : Thread nD τ).loc main_arg2)) ⟨t.val * 7168 + (y 0).val, hrows.2⟩) (rowOf (m ((c : Thread nD τ).loc main_arg1)) ⟨t.val * 7168 + (y 0).val, hrows.2⟩)
          (m ((c : Thread nD τ).loc main_arg5)) (m ((c : Thread nD τ).loc main_arg6)) k * (m ((c : Thread nD τ).loc main_arg7)) (ix2 (hi128 k) (⟨(y 1).val, hy1⟩ : Fin 3)) := fun k => by
    rw [hid_second m c t d2 d1 ⟨(y 0).val, hrows.1⟩ hy0 ⟨t.val * 7168 + (y 0).val, hrows.2⟩ rfl k,
      whole5 m c t (hi128 k) ⟨(y 1).val, hy1⟩, v8_apply m c (hi128 k) ⟨(y 1).val, hy1⟩]
  have e3 : iblk m c 6 t (ix2 (0 : Fin 1) (⟨(y 1).val, hy1⟩ : Fin 3)) = (m ((c : Thread nD τ).loc main_arg8)) (ix1 (⟨(y 1).val, hy1⟩ : Fin 3)) := by
    rw [whole6 m c t (0 : Fin 1) ⟨(y 1).val, hy1⟩, v9_apply m c ⟨(y 1).val, hy1⟩]
  rw [Finset.sum_congr rfl (fun k _ => e1 k), Finset.sum_congr rfl (fun k _ => e2 k), e3]

/-! ## The run -/

/-- Every weakly fair execution of the idealized kernel's program terminates without fault, with the result array at
    the specification of the launch contents of the nine arguments, and the arguments as launched. -/
theorem run : θ_run defs (onTc (τ := τ) (main (F := Ideal))) ⟨m, fun _ => 0, ρ⟩ fun r => ∀ c : Dev nD,
      r.2.mem ((c.tc : Thread nD τ).loc main_v10) = Garr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 7).trans (final7 m c),
      args_of_post m (dats m (out7 m)) (A_eq m (out7 m)) r h c⟩)
    (run_named m ρ (out7 m) (row_local m))

end Cert.KernelIdeal.KValue

end
-- ==== Proof.ReferenceValue.lean ====
/-
  The reference program's result is the specification, entry by entry.

  The reference joins each branch's input with the shared input along the columns, [n | c] and [r | c] (512 columns),
  multiplies by the branch's 512 x 128 matrix, adds the branch's bias along every row, and rectifies against the zero
  word; it joins the two rectified arrays along the columns (256 columns), multiplies by the 256 x 3 matrix and adds the
  last bias along every row. At entry (p, j) that is ONE sum over 256 positions of the joined hidden row times a column of
  Wd, each hidden unit being ONE sum over 512 positions of the joined input row times a column of its matrix.

  The specification writes each such sum as the sum over the lower half of the positions plus the sum over the upper
  half. Two facts carry one form into the other:
    * a column-wise join [a | b] read at column e of its lower half is a at column e, and read at column (width of a) + e
      is b at column e;
    * a sum over an even range is the sum over its lower half plus the sum over its upper half (sum_halves512,
      sum_halves256: commutativity and associativity of + on the extended reals; no entry need be finite).
  A bias broadcast along the rows is read at its column; the rectifier's zero stays the float word it is printed as, the
  same word on both sides. Row p of the result uses row p of n, c and r only, so nothing here ranges over the rows.
-/
import proofs.«148667_g32006096290012_cont_8to1_b_1154_28_alg».proof.Proof.Gen.ReferenceIdeal.Run
import proofs.«148667_g32006096290012_cont_8to1_b_1154_28_alg».proof.Proof.Gen.ReferenceIdeal.Read
import proofs.«148667_g32006096290012_cont_8to1_b_1154_28_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Cert.TwoBranch
  Idealize.ShloMosaic Idealize.ShloMosaic.ValueIdx Idealize.ShloMosaic.TcCoe Idealize.SL.Sem Idealize.ShloMosaic.StableHlo

/-! ## A column-wise join read in its lower and in its upper half

For [a | b] with a and b of equal width w: column e < w of the join is column e of a, and column w + e of the join is
column e of b; the row is the same. The piece's index is named by its coordinates and the coordinate equations are closed
by computation on the axis (the upper half's by e + w = w + e). -/

section Halves
variable {α : Type}

/-- [a | b] of two arrays of 256 columns, at column e of the lower half, is a at column e. -/
theorem concat512_lower (a b : S100000x256.Idx → α) (p : Fin 100000) (e : Fin 256) :
    concatenate S100000x512 1 [⟨S100000x256, a⟩, ⟨S100000x256, b⟩] concatenates_S100000x256_S100000x256_S100000x512_d1
        (ix2 p (lo256 e)) = a (ix2 p e) :=
  concatenate_pair_apply_left 1 a b _ (ix2 p (lo256 e)) rfl (ix2 p e)
    (fun d => match d with | ⟨0, _⟩ => rfl | ⟨1, _⟩ => rfl)

/-- [a | b] of two arrays of 256 columns, at column 256 + e, is b at column e. -/
theorem concat512_upper (a b : S100000x256.Idx → α) (p : Fin 100000) (e : Fin 256) :
    concatenate S100000x512 1 [⟨S100000x256, a⟩, ⟨S100000x256, b⟩] concatenates_S100000x256_S100000x256_S100000x512_d1
        (ix2 p (hi256 e)) = b (ix2 p e) :=
  concatenate_pair_apply_right 1 a b _ (ix2 p (hi256 e)) rfl rfl (ix2 p e)
    (fun d => match d with | ⟨0, _⟩ => fun _ => rfl | ⟨1, _⟩ => fun h => absurd rfl h)
    (Nat.add_comm _ _)

/-- [a | b] of two arrays of 128 columns, at column k of the lower half, is a at column k. -/
theorem concat256_lower (a b : S100000x128.Idx → α) (p : Fin 100000) (k : Fin 128) :
    concatenate S100000x256 1 [⟨S100000x128, a⟩, ⟨S100000x128, b⟩] concatenates_S100000x128_S100000x128_S100000x256_d1
        (ix2 p (lo128 k)) = a (ix2 p k) :=
  concatenate_pair_apply_left 1 a b _ (ix2 p (lo128 k)) rfl (ix2 p k)
    (fun d => match d with | ⟨0, _⟩ => rfl | ⟨1, _⟩ => rfl)

/-- [a | b] of two arrays of 128 columns, at column 128 + k, is b at column k. -/
theorem concat256_upper (a b : S100000x128.Idx → α) (p : Fin 100000) (k : Fin 128) :
    concatenate S100000x256 1 [⟨S100000x128, a⟩, ⟨S100000x128, b⟩] concatenates_S100000x128_S100000x128_S100000x256_d1
        (ix2 p (hi128 k)) = b (ix2 p k) :=
  concatenate_pair_apply_right 1 a b _ (ix2 p (hi128 k)) rfl rfl (ix2 p k)
    (fun d => match d with | ⟨0, _⟩ => fun _ => rfl | ⟨1, _⟩ => fun h => absurd rfl h)
    (Nat.add_comm _ _)

end Halves

/-! ## Where each operand is read

A matrix product's entry (p, k) at contraction position e reads its left operand at (p, e) and its right operand at
(e, k); a bias broadcast first to one row and then along all rows is read, at entry (p, k), at its column k. -/

/-- The first branch's product: left operand at (p, e) … -/
theorem lhsN (p : Fin 100000) (k : Fin 128) (e : Fin 512) : lidx_main_v2 (ix2 p k) e = ix2 p e :=
  funext fun a => Fin.ext (by match a with | ⟨0, _⟩ => rfl | ⟨1, _⟩ => rfl)
/-- … right operand at (e, k) … -/
theorem rhsN (p : Fin 100000) (k : Fin 128) (e : Fin 512) : ridx_main_v2 (ix2 p k) e = ix2 e k :=
  funext fun a => Fin.ext (by match a with | ⟨0, _⟩ => rfl | ⟨1, _⟩ => rfl)
/-- … and its bias at column k. -/
theorem biasN (p : Fin 100000) (k : Fin 128) : idx_main_v3 (idx_main_v4 (ix2 p k)) = ix1 k :=
  funext fun a => Fin.ext (by match a with | ⟨0, _⟩ => rfl)

/-- The second branch's product: left operand at (p, e) … -/
theorem lhsR (p : Fin 100000) (k : Fin 128) (e : Fin 512) : lidx_main_v7 (ix2 p k) e = ix2 p e :=
  funext fun a => Fin.ext (by match a with | ⟨0, _⟩ => rfl | ⟨1, _⟩ => rfl)
/-- … right operand at (e, k) … -/
theorem rhsR (p : Fin 100000) (k : Fin 128) (e : Fin 512) : ridx_main_v7 (ix2 p k) e = ix2 e k :=
  funext fun a => Fin.ext (by match a with | ⟨0, _⟩ => rfl | ⟨1, _⟩ => rfl)
/-- … and its bias at column k. -/
theorem biasR (p : Fin 100000) (k : Fin 128) : idx_main_v8 (idx_main_v9 (ix2 p k)) = ix1 k :=
  funext fun a => Fin.ext (by match a with | ⟨0, _⟩ => rfl)

/-- The last product: left operand at (p, k) … -/
theorem lhsD (p : Fin 100000) (j : Fin 3) (k : Fin 256) : lidx_main_v13 (ix2 p j) k = ix2 p k :=
  funext fun a => Fin.ext (by match a with | ⟨0, _⟩ => rfl | ⟨1, _⟩ => rfl)
/-- … right operand at (k, j) … -/
theorem rhsD (p : Fin 100000) (j : Fin 3) (k : Fin 256) : ridx_main_v13 (ix2 p j) k = ix2 k j :=
  funext fun a => Fin.ext (by match a with | ⟨0, _⟩ => rfl | ⟨1, _⟩ => rfl)
/-- … and its bias at column j. -/
theorem biasD (p : Fin 100000) (j : Fin 3) : idx_main_v14 (idx_main_v15 (ix2 p j)) = ix1 j :=
  funext fun a => Fin.ext (by match a with | ⟨0, _⟩ => rfl)

/-! ## The two hidden layers at an entry

max( Σ_{e<512} [x | c][p, e] · W[e, k] + b[k], 0 ): the sum over 512 positions splits into its halves, the lower half
reads x and the rows e of W, the upper half reads c and the rows 256 + e of W. What is left is the specification's hidden
unit of the rows p of x and of c, by its definition. -/

/-- The first branch: the rectified affine form of [x | c] at (p, k) is the hidden unit k of the rows p of x and c. -/
theorem hiddenN_at (x c : FVec Ideal S100000x256 .f32) (W : FVec Ideal S512x128 .f32) (b : FVec Ideal S128 .f32)
    (p : Fin 100000) (k : Fin 128) :
    val_main_v6 (F := Ideal) x c W b (ix2 p k) = hidden (rowOf x p) (rowOf c p) W b k := by
  rw [val_main_v6_apply, val_main_v5_apply, val_main_v2_apply, val_main_v4_apply, val_main_v3_apply,
    val_main_call0_v0_apply, val_main_call0_cst_apply, sum_halves512]
  simp only [lhsN, rhsN, biasN, val_main_v0, concat512_lower, concat512_upper, Ideal.maximumf_def, Ideal.addf_def,
    Ideal.ofBits_def]
  rfl

/-- The second branch, whose join is [x | c] with the shared input c given first among the arguments. -/
theorem hiddenR_at (c x : FVec Ideal S100000x256 .f32) (W : FVec Ideal S512x128 .f32) (b : FVec Ideal S128 .f32)
    (p : Fin 100000) (k : Fin 128) :
    val_main_v11 (F := Ideal) c x W b (ix2 p k) = hidden (rowOf x p) (rowOf c p) W b k := by
  rw [val_main_v11_apply, val_main_v10_apply, val_main_v7_apply, val_main_v9_apply, val_main_v8_apply,
    val_main_call1_v0_apply, val_main_call1_cst_apply, sum_halves512]
  simp only [lhsR, rhsR, biasR, val_main_v1, concat512_lower, concat512_upper, Ideal.maximumf_def, Ideal.addf_def,
    Ideal.ofBits_def]
  rfl

/-! ## The result at an entry

Σ_{k<256} [hn | hr][p, k] · Wd[k, j] + bd[j]: the sum over 256 positions splits into its halves, the lower half reads the
first branch's hidden units and the rows k of Wd, the upper half the second branch's and the rows 128 + k of Wd. -/

/-- Entry (p, j) of the reference's last stage is the specification's entry. -/
theorem out_at (n c r : FVec Ideal S100000x256 .f32) (Wn : FVec Ideal S512x128 .f32) (bn : FVec Ideal S128 .f32)
    (Wr : FVec Ideal S512x128 .f32) (br : FVec Ideal S128 .f32) (Wd : FVec Ideal S256x3 .f32) (bd : FVec Ideal S3 .f32)
    (p : Fin 100000) (j : Fin 3) :
    val_main_v16 (F := Ideal) n c r Wn bn Wr br Wd bd (ix2 p j) = Gc n c r Wn bn Wr br Wd bd p j := by
  rw [val_main_v16_apply, val_main_v13_apply, val_main_v15_apply, val_main_v14_apply, sum_halves256]
  simp only [lhsD, rhsD, biasD, val_main_v12, concat256_lower, concat256_upper, hiddenN_at, hiddenR_at, Ideal.addf_def]
  rfl

/-- Index by index, the reference's composed term of nine arrays is the specification G of them. -/
theorem result_eq (n c r : FVec Ideal S100000x256 .f32) (Wn : FVec Ideal S512x128 .f32) (bn : FVec Ideal S128 .f32)
    (Wr : FVec Ideal S512x128 .f32) (br : FVec Ideal S128 .f32) (Wd : FVec Ideal S256x3 .f32) (bd : FVec Ideal S3 .f32) :
    addf (Host.dotGeneral dot_S100000x256_S256x3_S100000x3_1_0_0_1_n_n none (concatenate S100000x256 1 [⟨S100000x128, (maximumf (addf (Host.dotGeneral dot_S100000x512_S512x128_S100000x128_1_0_0_1_n_n none (concatenate S100000x512 1 [⟨S100000x256, n⟩, ⟨S100000x256, c⟩] concatenates_S100000x256_S100000x256_S100000x512_d1) Wn) (broadcastInDim S100000x128 ![0, 1] bcast_S1x128_S100000x128_0_1 (broadcastInDim S1x128 ![1] bcast_S128_S1x128_1 bn))) (broadcastInDim S100000x128 ![] bcast_S_S100000x128 (constant (F := Ideal) S_ .f32 0x00000000#32)))⟩, ⟨S100000x128, (maximumf (addf (Host.dotGeneral dot_S100000x512_S512x128_S100000x128_1_0_0_1_n_n none (concatenate S100000x512 1 [⟨S100000x256, r⟩, ⟨S100000x256, c⟩] concatenates_S100000x256_S100000x256_S100000x512_d1) Wr) (broadcastInDim S100000x128 ![0, 1] bcast_S1x128_S100000x128_0_1 (broadcastInDim S1x128 ![1] bcast_S128_S1x128_1 br))) (broadcastInDim S100000x128 ![] bcast_S_S100000x128 (constant (F := Ideal) S_ .f32 0x00000000#32)))⟩] concatenates_S100000x128_S100000x128_S100000x256_d1) Wd) (broadcastInDim S100000x3 ![0, 1] bcast_S1x3_S100000x3_0_1 (broadcastInDim S1x3 ![1] bcast_S3_S1x3_1 bd))
      = G n c r Wn bn Wr br Wd bd := by
  rw [val_main_v16_eq]
  funext i
  obtain ⟨p, j, rfl⟩ : ∃ (p : Fin 100000) (j : Fin 3), i = ix2 p j := ⟨i 0, i 1, eq_ix2 i⟩
  rw [G_ix2]
  exact out_at n c r Wn bn Wr br Wd bd p j

/-- The reference's run, with its result named by G of the launch contents of the nine arguments, arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v16)
          = G (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono
    (fun _ h c => ⟨(h c).1.trans (result_eq _ _ _ _ _ _ _ _ _), (h c).2⟩)
    (Cert.ReferenceIdeal.Value.run (F := Ideal) m ρ)

end Cert.ReferenceIdeal.RefValue

end
-- ==== Proof.lean ====
/-
  A fused two-branch perceptron over 100000 rows, gridded over row blocks, against its plain array program.

  With n, c, r of 256 columns, first-layer maps (Wn, bn), (Wr, br) of 512 inputs and 128 outputs and a second-layer map
  (Wd, bd) of 256 inputs and 3 outputs, the plain program computes

      relu([n | c] Wn + bn),  relu([r | c] Wr + br),  joined along the columns, times Wd, plus bd.

  The kernel never forms the joined arrays. It packs the upper and lower halves of Wn and Wr side by side into one
  256 x 512 operand and the two first-layer biases into one row, and at each of fourteen blocks of 7168 rows computes
  the product with the shared input c once for both branches, each branch's own half product, the two rectified hidden
  slabs, and the sum of their two second-layer half products plus bd. On the extended reals the two programs are the same
  function of the nine arrays: a product against a column-wise join is the sum of the two half products, which is a
  regrouping of one finite sum (commutativity and associativity of +, so no entry need be finite), and a change of
  float format is the identity on values. The last block reaches 352 rows past the arrays' end; the rows there are
  neither transferred in nor written back, and a row of the result depends on the same row of the inputs only, so what
  the buffers hold there never reaches the result.

  The claims. Each of the three programs runs to the end without fault and leaves its nine arguments as launched: the
  two kernel programs by running the region block by block against the pipeline's launch theorem (the word-level one
  with nothing said of the result array), the plain program by its run read back. The idealization rewrote nothing, so
  there is nothing to preserve. The two idealized programs end with equal results: each result array is the
  specification of the launch contents of the arguments, which agree.
-/
import proofs.«148667_g32006096290012_cont_8to1_b_1154_28_alg».proof.Defs
import proofs.«148667_g32006096290012_cont_8to1_b_1154_28_alg».proof.Proof.Gen.Kernel
import proofs.«148667_g32006096290012_cont_8to1_b_1154_28_alg».proof.Proof.Gen.KernelIdeal
import proofs.«148667_g32006096290012_cont_8to1_b_1154_28_alg».proof.Proof.Gen.ReferenceIdeal
import proofs.«148667_g32006096290012_cont_8to1_b_1154_28_alg».proof.Proof.Gen.Pre_finite_inputs
import proofs.«148667_g32006096290012_cont_8to1_b_1154_28_alg».proof.Proof.Gen.ReferenceIdeal.Run
import proofs.«148667_g32006096290012_cont_8to1_b_1154_28_alg».proof.Proof.Gen.ReferenceIdeal.Read
import proofs.«148667_g32006096290012_cont_8to1_b_1154_28_alg».proof.Proof.BodyBits
import proofs.«148667_g32006096290012_cont_8to1_b_1154_28_alg».proof.Proof.BodyIdeal
import proofs.«148667_g32006096290012_cont_8to1_b_1154_28_alg».proof.Proof.KernelValue
import proofs.«148667_g32006096290012_cont_8to1_b_1154_28_alg».proof.Proof.ReferenceValue

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Body.frame (F := Bits) m ρ

/-- So does its reading at the exact values. -/
theorem frame_kernel_ideal : Cert.frame_KernelIdeal := fun m ρ _ => Cert.KernelIdeal.Body.frame (F := Ideal) m ρ

/-- The plain program's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both result arrays are the specification of the arguments, which agree. -/
theorem algebraic : Cert.algebraic_KernelIdeal_ReferenceIdeal := by
  intro m ρ m' ρ' _ hagree
  refine ⟨fun c => Cert.KernelIdeal.Arrays.Garr m c, Cert.KernelIdeal.KValue.run m ρ, ?_⟩
  refine (θ_run Cert.ReferenceIdeal.defs _ _).mono (fun _ h c => ⟨(h c).1.trans ?_, (h c).2⟩)
    (Cert.ReferenceIdeal.RefValue.run_G m' ρ')
  obtain ⟨a0, a1, a2, a3, a4, a5, a6, a7, a8⟩ := hagree c
  rw [a0, a1, a2, a3, a4, a5, a6, a7, a8]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
